-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x256 : Shape := ⟨2, ![5000, 256]⟩
abbrev S5000x1 : Shape := ⟨2, ![5000, 1]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 66
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S50000x1, .f32⟩
  | .hbm, ⟨46, _⟩ => ⟨S1x256, .f32⟩
  | .hbm, ⟨47, _⟩ => ⟨S50000x256, .f32⟩
  | .hbm, ⟨48, _⟩ => ⟨S50000x1, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x1, .f32⟩
  | .hbm, ⟨64, _⟩ => ⟨S1x128, .f32⟩
  | .hbm, ⟨65, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x256, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000, .f32⟩
  | .hbm, ⟨108, _⟩ => ⟨S850000, .f32⟩
  | .hbm, ⟨109, _⟩ => ⟨S_, .i32⟩
  | .hbm, ⟨110, _⟩ => ⟨S850000, .i32⟩
  | .hbm, ⟨111, _⟩ => ⟨S850000, .i1⟩
  | .hbm, ⟨112, _⟩ => ⟨S_, .i32⟩
  | .hbm, ⟨113, _⟩ => ⟨S850000, .i32⟩
  | .hbm, ⟨114, _⟩ => ⟨S850000, .i32⟩
  | .hbm, ⟨115, _⟩ => ⟨S850000, .i32⟩
  | .hbm, ⟨116, _⟩ => ⟨S850000x1, .i32⟩
  | .hbm, ⟨117, _⟩ => ⟨S850000x128, .f32⟩
  | .hbm, ⟨118, _⟩ => ⟨S850000x1, .f32⟩
  | .hbm, ⟨119, _⟩ => ⟨S850000x128, .f32⟩
  | .hbm, ⟨120, _⟩ => ⟨S850000x128, .f32⟩
  | .hbm, ⟨121, _⟩ => ⟨S_, .f32⟩
  | .hbm, ⟨122, _⟩ => ⟨S50000x128, .f32⟩
  | .hbm, ⟨123, _⟩ => ⟨S850000x1, .i32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel's run with its result array named.

  @main is four kernel regions among stretches of host operations. Every weakly fair execution from a memory with zero
  counters terminates without a fault; the final state holds, at every buffer no region scopes, the contents the fold
  through the stretches and the regions' write-backs leaves there. Read at the result buffer this is the last region's
  output array after its last grid point; read at an argument it is the launch contents.
-/
import proofs.«157112_j36636071035639_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents there, and the six argument arrays end as launched. -/
theorem run : θ_run defs (onTc (τ := τ) (main (F := F))) ⟨m, fun _ => 0, ρ⟩ (fun r => ∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v46 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.KRun

end
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibRowScatterSum.lean ====
/-
  A row scatter-add through an index column, read at an entry as a sum over the edges that land on the row.

  For an operand [N, C], indices [E, 1] and updates [E, C], update (e, c) lands on entry (n, c') exactly when
  the signed index word of e is n and c = c'. So the scatter-add at entry (n, c) is the operand's entry plus the sum,
  over the edges e whose word is n, of the update (e, c); and the same for a vector operand [N] with updates [E].
-/
import Mathlib
import Idealize.ShloMosaic.PureOps.Ideal
import Idealize.ShloMosaic.PureOps.Ideal.Laws
import Idealize.ShloMosaic.Lib.ValueIdx
import proofs.«157112_j36636071035639_2_alg».proof.Proof.LibRowGather

noncomputable section

open scoped BigOperators

namespace Cert.LibRowScatterSum

open Idealize.ShloMosaic Idealize.ShloMosaic.ValueIdx Cert.LibRowGather

variable {N E C w : Nat} (wf : ScatterDims.WF ⟨2, ![N, C]⟩ ⟨2, ![E, 1]⟩ ⟨2, ![E, C]⟩ [1] [0] [0] 1)

/-- The window of update (e, c) starts, on the row axis, at the signed index word of e. -/
theorem start_row (idx : IVec ⟨2, ![E, 1]⟩ w) (e : Fin E) (c : Fin C) :
    (rowScatterDims N E C wf).start (ix2 e c) idx 0 = (idx (edgeIdx e)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = edgeIdx e := by
    funext b; refine Fin.ext ?_
    match b with
    | ⟨0, _⟩ => rfl
    | ⟨1, _⟩ => rfl
  rw [hsi]

/-- … and, on the lane axis, at zero. -/
theorem start_lane (idx : IVec ⟨2, ![E, 1]⟩ w) (e : Fin E) (c : Fin C) :
    (rowScatterDims N E C wf).start (ix2 e c) idx 1 = 0 := by
  unfold ScatterDims.start
  rw [dif_neg (show ¬ (1 : Fin 2) ∈ (rowScatterDims N E C wf).scatterDimsToOperandDims from
    (by decide : ¬ (1 : Fin 2) ∈ ([0] : List (Fin 2))))]

/-- The window coordinate of update (e, c) is zero on the row axis … -/
theorem window_row (e : Fin E) (c : Fin C) : (rowScatterDims N E C wf).window (ix2 e c) 0 = 0 := by
  unfold ScatterDims.window
  rw [dif_neg (show ¬ (0 : Fin 2) ∈ (rowScatterDims N E C wf).sKept from
    (by decide : ¬ (0 : Fin 2) ∈ (List.finRange 2).filter (fun a => a ∉ ([0] : List (Fin 2)))))]

/-- … and its lane on the lane axis. -/
theorem window_lane (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (fun a => a ∉ ([0] : List (Fin 2)))))]
  rfl

/-- Update (e, c) lands on entry (n, c') exactly when the signed word of e is n and the lanes agree. -/
theorem lands_iff (idx : IVec ⟨2, ![E, 1]⟩ w) (e : Fin E) (c : Fin C) (n : Fin N) (c' : Fin C) :
    (rowScatterDims N E C wf).resultIdx? (ix2 e c) idx = some (ix2 n c')
      ↔ (idx (edgeIdx e)).toInt = (n.val : ℤ) ∧ c = c' := by
  constructor
  · exact scatter_row_lands wf idx e c n c'
  · rintro ⟨hw, rfl⟩
    have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        have h0 := start_row wf idx e c
        have h1 := window_row wf e c
        have hn := n.isLt
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, h1, hw]; constructor <;> omega
      | ⟨1, _⟩ =>
        have h0 := start_lane wf idx e c
        have h1 := window_lane wf e c
        have hc := c.isLt
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h0, h1]; constructor <;> omega
    unfold ScatterDims.resultIdx?
    rw [dif_pos hall]
    refine congrArg some ?_
    funext a
    refine Fin.ext ?_
    match a with
    | ⟨0, _⟩ =>
      show ((rowScatterDims N E C wf).start (ix2 e c) idx 0 + ((rowScatterDims N E C wf).window (ix2 e c) 0 : ℤ)).toNat = n.val
      rw [start_row wf idx e c, window_row wf e c, hw]; omega
    | ⟨1, _⟩ =>
      show ((rowScatterDims N E C wf).start (ix2 e c) idx 1 + ((rowScatterDims N E C wf).window (ix2 e c) 1 : ℤ)).toNat = c.val
      rw [start_lane wf idx e c, window_lane wf e c]; omega

/-- The row scatter-add at entry (n, c): the operand's entry plus the updates (e, c) of the edges whose word is n. -/
theorem hostScatterAdd_rows_apply (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) Z idx u (ix2 n c)
      = Z (ix2 n c) + ∑ e ∈ Finset.univ.filter (fun e : Fin E => (idx (edgeIdx e)).toInt = (n.val : ℤ)), u (ix2 e c) := by
  classical
  show Z (ix2 n c) + _ = _
  congr 1
  rw [Finset.sum_filter, sum_idx2, Finset.sum_filter]
  refine Finset.sum_congr rfl fun e _ => ?_
  by_cases hw : (idx (edgeIdx e)).toInt = (n.val : ℤ)
  · rw [if_pos hw, Finset.sum_eq_single c]
    · rw [if_pos ((lands_iff wf idx e c n c).mpr ⟨hw, rfl⟩)]
    · intro c₁ _ hne
      rw [if_neg]
      intro h
      exact hne ((lands_iff wf idx e c₁ n c).mp h).2
    · intro h; exact absurd (Finset.mem_univ c) h
  · rw [if_neg hw]
    refine Finset.sum_eq_zero fun c₁ _ => ?_
    rw [if_neg]
    intro h
    exact hw ((lands_iff wf idx e c₁ n c).mp h).1

end Cert.LibRowScatterSum

end
-- ==== Proof.LibRowDims.lean ====
/-
  Row gathers and row scatter-adds through an index column, for any dimension-number record with the right fields.

  A record of gather (or scatter) dimension numbers is determined by its fields. So the readings of the row gather and of
  the row scatter-add at an entry hold for every record whose fields say "rows through an index column", whatever name a
  program gives that record.
-/
import Mathlib
import Idealize.ShloMosaic.PureOps.Ideal
import Idealize.ShloMosaic.PureOps.Ideal.Laws
import Idealize.ShloMosaic.Lib.ValueIdx
import proofs.«157112_j36636071035639_2_alg».proof.Proof.LibRowGather
import proofs.«157112_j36636071035639_2_alg».proof.Proof.LibRowScatterSum

noncomputable section

open scoped BigOperators

namespace Cert.LibRowDims

open Idealize.ShloMosaic Idealize.ShloMosaic.ValueIdx Cert.LibRowGather

variable {N E C w : Nat}

/-- The row scatter-add at entry (n, c), for any record with the row-scatter fields. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd d Z idx u (ix2 n c)
      = Z (ix2 n c) + ∑ e ∈ Finset.univ.filter (fun e : Fin E => (idx (edgeIdx e)).toInt = (n.val : ℤ)), u (ix2 e c) := by
  obtain ⟨uw, iw, sd, iv, wf⟩ := d
  dsimp only at h1 h2 h3 h4
  subst h1 h2 h3 h4
  exact Cert.LibRowScatterSum.hostScatterAdd_rows_apply wf Z idx u n c

/-- The row gather at edge e, lane c, for any record with the row-gather fields. -/
theorem gather_row_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (rowOf N hN (idx (edgeIdx e))) c) := by
  obtain ⟨od, cs, ob, sb, sm, iv, ss, wf⟩ := d
  dsimp only at h1 h2 h3 h4 h5 h6 h7
  subst h1 h2 h3 h4 h5 h6 h7
  exact Cert.LibRowGather.gather_row_apply hN wf x idx e c

end Cert.LibRowDims

end
-- ==== Proof.LibGraphConv.lean ====
/-
  The symmetric-normalised neighbourhood sum, with the landing row's factor inside or outside the sum.

  Rows of `H : [N, C]` are gathered through a column of source indices, each gathered row is scaled, and the scaled rows
  are scatter-added through a column of destination indices into zeros. If every gathered row `e` carries the factor
  `D[src e] · D[dst e]`, the sum that lands on row `n` is `D[n]` times the sum of the rows of `H ⊙ D` gathered the
  same way: an update lands on row `n` only if its destination word is `n`, where the destination column used for the
  gather (indices made non-negative) agrees with the one used for the scatter; and `D[n]`, non-negative and not `+∞`,
  distributes over the sum. The factor `D` itself is `0` or the reciprocal square root of something at least one.
-/
import Mathlib
import Idealize.ShloMosaic.PureOps.Ideal
import Idealize.ShloMosaic.PureOps.Ideal.Laws
import Idealize.ShloMosaic.Lib.ValueIdx
import proofs.«157112_j36636071035639_2_alg».proof.Proof.LibRowGather

noncomputable section

open scoped BigOperators

namespace Cert.LibGraphConv

open Idealize.ShloMosaic Idealize.ShloMosaic.ValueIdx Cert.LibRowGather

/-- The f32 word `0x3F800000` is one. -/
theorem ofBits_one_f32 : Ideal.ofBits .f32 0x3F800000#32 = 1 := by
  simp [Ideal.ofBits, Ideal.ieee, -EReal.coe_mul]
  norm_num

/-- `0`, or the reciprocal square root of the larger of `y` and one, chosen by a one-bit word: non-negative and not `+∞`. -/
theorem degFactor_bounds (b : BitVec 1) (y : EReal) :
    0 ≤ Scalar.select b (Ideal.rsqrt (max y (Ideal.ofBits .f32 0x3F800000#32))) (Ideal.ofBits .f32 0x00000000#32)
    ∧ Scalar.select b (Ideal.rsqrt (max y (Ideal.ofBits .f32 0x3F800000#32))) (Ideal.ofBits .f32 0x00000000#32) ≠ ⊤ := by
  by_cases hb : b = 1#1
  · rw [hb, select_one, ofBits_one_f32]
    exact rsqrt_of_one_le _ (le_max_right _ _)
  · rw [eq_zero_of_ne_one hb, select_zero, Ideal.ofBits_zero_f32]
    exact ⟨le_refl _, EReal.zero_ne_top⟩

/-- THE LAW. `u` is the reference's update array (gathered rows of `H` times `D[src] · D[dst]`), `v` the kernel's
    (gathered rows of `Hs = H ⊙ D`); both are scatter-added through `dstS` into `Z = 0`. At every element `(n, c)` the
    first is `D[n]` times the second. -/
theorem scatterAdd_rows_scale {N E C w : Nat} (hN : 0 < N)
    (gwf1 : GatherDims.WF ⟨1, ![N]⟩ ⟨2, ![E, 1]⟩ ⟨1, ![E]⟩ [] [0] [] [0] [] 1 ![1])
    (gwf2 : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (H Hs : (⟨2, ![N, C]⟩ : Shape).Idx → EReal) (D : (⟨1, ![N]⟩ : Shape).Idx → EReal)
    (hD : ∀ n : Fin N, 0 ≤ D (ix1 n) ∧ D (ix1 n) ≠ ⊤)
    (hHs : ∀ (n : Fin N) (c : Fin C), Hs (ix2 n c) = H (ix2 n c) * D (ix1 n))
    (src dstG dstS : IVec ⟨2, ![E, 1]⟩ w)
    (hdst : ∀ e : Fin E, 0 ≤ (dstS (edgeIdx e)).toInt → dstG (edgeIdx e) = dstS (edgeIdx e))
    (Z : (⟨2, ![N, C]⟩ : Shape).Idx → EReal) (hZ : ∀ i, Z i = 0)
    (u v : (⟨2, ![E, C]⟩ : Shape).Idx → EReal)
    (hu : ∀ (e : Fin E) (c : Fin C), u (ix2 e c) = Host.gather (rowDims N E C gwf2) H src (ix2 e c)
        * (Host.gather (vecDims N E gwf1) D src (ix1 e) * Host.gather (vecDims N E gwf1) D dstG (ix1 e)))
    (hv : ∀ (e : Fin E) (c : Fin C), v (ix2 e c) = Host.gather (rowDims N E C gwf2) Hs src (ix2 e c))
    (n : Fin N) (c : Fin C) :
    Ideal.hostScatterAdd (rowScatterDims N E C swf) Z dstS u (ix2 n c)
      = D (ix1 n) * Ideal.hostScatterAdd (rowScatterDims N E C swf) Z dstS v (ix2 n c) := by
  refine hostScatterAdd_scale (rowScatterDims N E C swf) Z dstS u v (ix2 n c) (hZ _) (hD n).1 (hD n).2 ?_
  intro j hj
  obtain ⟨e, c₁, rfl⟩ : ∃ (e : Fin E) (c₁ : Fin C), j = ix2 e c₁ := ⟨j 0, j 1, eq_ix2 j⟩
  obtain ⟨hw, rfl⟩ := scatter_row_lands swf dstS e c₁ n c hj
  have hg : dstG (edgeIdx e) = dstS (edgeIdx e) := hdst e (by rw [hw]; exact Int.natCast_nonneg _)
  rw [hu, hv, gather_row_apply hN, gather_row_apply hN, gather_vec_apply hN, gather_vec_apply hN, hHs, hg,
    rowOf_of_toInt hN _ n hw]
  ac_rfl

end Cert.LibGraphConv

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibFusedColumns.lean ====
/-
  A graph convolution read at an entry, and its columns when the weight matrix is two blocks side by side.

  The chain is: the product H · W of H : [N, K] with W : [K, C]; the rows of that product gathered through a column of
  source indices (each index read signed and clamped into [0, N - 1]); each gathered entry scaled by an array S : [E, C];
  the scaled rows scatter-added through a column of destination indices into an array Z : [N, C] (an update lands on row
  n when the signed destination word is n, and is dropped when the word is outside [0, N)); and an array B : [N, C] added.

  Read at entry (n, c) the chain is
      (Z[n, c] + Σ over the edges e whose destination word is n of S[e, c] · Σ over k of H[row(src e), k] · W[k, c]) + B[n, c],
  and this mentions W, S, Z and B only through their column c. So when column l of one chain's W, S, Z, B is column q of
  another chain's (a weight matrix made of two blocks side by side, its bias made the same way, and scale and zero arrays
  that do not depend on the column), entry (n, l) of the first chain is entry (n, q) of the second, summand by summand:
  no arithmetic of the extended reals beyond rewriting equal summands is used, and no finiteness.
-/
import Mathlib
import Idealize.ShloMosaic.PureOps.Ideal
import Idealize.ShloMosaic.PureOps.Ideal.Laws
import Idealize.ShloMosaic.Lib.ValueIdx
import Idealize.ShloMosaic.Lib.Pipeline.Value
import proofs.«157112_j36636071035639_2_alg».proof.Proof.LibRowGather
import proofs.«157112_j36636071035639_2_alg».proof.Proof.LibRowDims
import proofs.«157112_j36636071035639_2_alg».proof.Proof.LibDotRows

noncomputable section

open scoped BigOperators

namespace Cert.LibFusedColumns

open Idealize.ShloMosaic Idealize.ShloMosaic.ValueIdx Cert.LibRowGather

/-- Entry (p, q) of the host's product x · w is the sum over k of x[p, k] · w[k, q], for any record of dimension numbers
    whose fields say "contract axis 1 of the left operand with axis 0 of the right one, no batch axis". -/
theorem dotGeneral_rows_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ φ₁) (w : FVec Ideal ⟨2, ![K, N]⟩ φ₂) (p : Fin M) (q : Fin N) :
    Host.dotGeneral (F := Ideal) d none x w (ix2 p q) = ∑ k : Fin K, x (ix2 p k) * w (ix2 k q) := by
  obtain ⟨lc, rc, ln, rn, lb, rb, wf⟩ := d
  dsimp only at h1 h2 h3 h4 h5 h6
  subst h1 h2 h3 h4 h5 h6
  exact Cert.Lib.DotRows.dotGeneral_plain_apply x w p q

section Chain

variable {N E K C w : Nat} (hN : 0 < N)
  (dD : DotDims ⟨2, ![N, K]⟩ ⟨2, ![K, C]⟩ ⟨2, ![N, C]⟩)
  (hd1 : dD.lhsContracting = [1]) (hd2 : dD.rhsContracting = [0]) (hd3 : dD.lhsNonContracting = [0])
  (hd4 : dD.rhsNonContracting = [1]) (hd5 : dD.lhsBatch = []) (hd6 : dD.rhsBatch = [])
  (gD : GatherDims ⟨2, ![N, C]⟩ ⟨2, ![E, 1]⟩ ⟨2, ![E, C]⟩)
  (hg1 : gD.offsetDims = [1]) (hg2 : gD.collapsedSliceDims = [0]) (hg3 : gD.operandBatchingDims = [])
  (hg4 : gD.startIndicesBatchingDims = []) (hg5 : gD.startIndexMap = [0]) (hg6 : gD.indexVectorDim = 1)
  (hg7 : gD.sliceSizes = ![1, C])
  (sD : ScatterDims ⟨2, ![N, C]⟩ ⟨2, ![E, 1]⟩ ⟨2, ![E, C]⟩)
  (hs1 : sD.updateWindowDims = [1]) (hs2 : sD.insertedWindowDims = [0]) (hs3 : sD.scatterDimsToOperandDims = [0])
  (hs4 : sD.indexVectorDim = 1)

include hd1 hd2 hd3 hd4 hd5 hd6 hg1 hg2 hg3 hg4 hg5 hg6 hg7 hs1 hs2 hs3 hs4 in
/-- THE CHAIN READ AT ENTRY (n, c). -/
theorem conv_apply (H : FVec Ideal ⟨2, ![N, K]⟩ .f32) (W : FVec Ideal ⟨2, ![K, C]⟩ .f32)
    (srcCol dstCol : IVec ⟨2, ![E, 1]⟩ w) (S : FVec Ideal ⟨2, ![E, C]⟩ .f32) (Z B : FVec Ideal ⟨2, ![N, C]⟩ .f32)
    (n : Fin N) (c : Fin C) :
    addf (Host.scatterAdd sD Z dstCol (mulf S (Host.gather gD (Host.dotGeneral dD none H W) srcCol))) B (ix2 n c)
      = (Z (ix2 n c) + ∑ e ∈ Finset.univ.filter (fun e : Fin E => (dstCol (edgeIdx e)).toInt = (n.val : ℤ)),
            S (ix2 e c) * ∑ k : Fin K, H (ix2 (rowOf N hN (srcCol (edgeIdx e))) k) * W (ix2 k c))
          + B (ix2 n c) := by
  show Ideal.hostScatterAdd sD Z dstCol (mulf S (Host.gather gD (Host.dotGeneral dD none H W) srcCol)) (ix2 n c)
      + B (ix2 n c) = _
  rw [Cert.LibRowDims.hostScatterAdd_rows_apply sD hs1 hs2 hs3 hs4]
  refine congrArg (fun t => (Z (ix2 n c) + t) + B (ix2 n c)) (Finset.sum_congr rfl fun e _ => ?_)
  show S (ix2 e c) * Host.gather gD (Host.dotGeneral dD none H W) srcCol (ix2 e c) = _
  rw [Cert.LibRowDims.gather_row_apply hN gD hg1 hg2 hg3 hg4 hg5 hg6 hg7,
    dotGeneral_rows_apply dD hd1 hd2 hd3 hd4 hd5 hd6]

end Chain

/-- THE COLUMNS OF A FUSED CHAIN. Two chains over the same H and the same index columns, the first with C₁ columns and the
    second with C₂. If column l of the first chain's weight, scale, zero and bias arrays is column q of the second's, then
    entry (n, l) of the first chain is entry (n, q) of the second. -/
theorem conv_column_eq {N E K C₁ C₂ w : Nat} (hN : 0 < N)
    (dD₁ : DotDims ⟨2, ![N, K]⟩ ⟨2, ![K, C₁]⟩ ⟨2, ![N, C₁]⟩)
    (hd1 : dD₁.lhsContracting = [1]) (hd2 : dD₁.rhsContracting = [0]) (hd3 : dD₁.lhsNonContracting = [0])
    (hd4 : dD₁.rhsNonContracting = [1]) (hd5 : dD₁.lhsBatch = []) (hd6 : dD₁.rhsBatch = [])
    (gD₁ : GatherDims ⟨2, ![N, C₁]⟩ ⟨2, ![E, 1]⟩ ⟨2, ![E, C₁]⟩)
    (hg1 : gD₁.offsetDims = [1]) (hg2 : gD₁.collapsedSliceDims = [0]) (hg3 : gD₁.operandBatchingDims = [])
    (hg4 : gD₁.startIndicesBatchingDims = []) (hg5 : gD₁.startIndexMap = [0]) (hg6 : gD₁.indexVectorDim = 1)
    (hg7 : gD₁.sliceSizes = ![1, C₁])
    (sD₁ : ScatterDims ⟨2, ![N, C₁]⟩ ⟨2, ![E, 1]⟩ ⟨2, ![E, C₁]⟩)
    (hs1 : sD₁.updateWindowDims = [1]) (hs2 : sD₁.insertedWindowDims = [0]) (hs3 : sD₁.scatterDimsToOperandDims = [0])
    (hs4 : sD₁.indexVectorDim = 1)
    (dD₂ : DotDims ⟨2, ![N, K]⟩ ⟨2, ![K, C₂]⟩ ⟨2, ![N, C₂]⟩)
    (kd1 : dD₂.lhsContracting = [1]) (kd2 : dD₂.rhsContracting = [0]) (kd3 : dD₂.lhsNonContracting = [0])
    (kd4 : dD₂.rhsNonContracting = [1]) (kd5 : dD₂.lhsBatch = []) (kd6 : dD₂.rhsBatch = [])
    (gD₂ : GatherDims ⟨2, ![N, C₂]⟩ ⟨2, ![E, 1]⟩ ⟨2, ![E, C₂]⟩)
    (kg1 : gD₂.offsetDims = [1]) (kg2 : gD₂.collapsedSliceDims = [0]) (kg3 : gD₂.operandBatchingDims = [])
    (kg4 : gD₂.startIndicesBatchingDims = []) (kg5 : gD₂.startIndexMap = [0]) (kg6 : gD₂.indexVectorDim = 1)
    (kg7 : gD₂.sliceSizes = ![1, C₂])
    (sD₂ : ScatterDims ⟨2, ![N, C₂]⟩ ⟨2, ![E, 1]⟩ ⟨2, ![E, C₂]⟩)
    (ks1 : sD₂.updateWindowDims = [1]) (ks2 : sD₂.insertedWindowDims = [0]) (ks3 : sD₂.scatterDimsToOperandDims = [0])
    (ks4 : sD₂.indexVectorDim = 1)
    (H : FVec Ideal ⟨2, ![N, K]⟩ .f32) (srcCol dstCol : IVec ⟨2, ![E, 1]⟩ w)
    (W₁ : FVec Ideal ⟨2, ![K, C₁]⟩ .f32) (S₁ : FVec Ideal ⟨2, ![E, C₁]⟩ .f32) (Z₁ B₁ : FVec Ideal ⟨2, ![N, C₁]⟩ .f32)
    (W₂ : FVec Ideal ⟨2, ![K, C₂]⟩ .f32) (S₂ : FVec Ideal ⟨2, ![E, C₂]⟩ .f32) (Z₂ B₂ : FVec Ideal ⟨2, ![N, C₂]⟩ .f32)
    (n : Fin N) (l : Fin C₁) (q : Fin C₂)
    (hW : ∀ k : Fin K, W₁ (ix2 k l) = W₂ (ix2 k q)) (hS : ∀ e : Fin E, S₁ (ix2 e l) = S₂ (ix2 e q))
    (hZ : Z₁ (ix2 n l) = Z₂ (ix2 n q)) (hB : B₁ (ix2 n l) = B₂ (ix2 n q)) :
    addf (Host.scatterAdd sD₁ Z₁ dstCol (mulf S₁ (Host.gather gD₁ (Host.dotGeneral dD₁ none H W₁) srcCol))) B₁ (ix2 n l)
      = addf (Host.scatterAdd sD₂ Z₂ dstCol (mulf S₂ (Host.gather gD₂ (Host.dotGeneral dD₂ none H W₂) srcCol))) B₂ (ix2 n q) := by
  rw [conv_apply hN dD₁ hd1 hd2 hd3 hd4 hd5 hd6 gD₁ hg1 hg2 hg3 hg4 hg5 hg6 hg7 sD₁ hs1 hs2 hs3 hs4,
    conv_apply hN dD₂ kd1 kd2 kd3 kd4 kd5 kd6 gD₂ kg1 kg2 kg3 kg4 kg5 kg6 kg7 sD₂ ks1 ks2 ks3 ks4, hZ, hB]
  refine congrArg (fun t => (Z₂ (ix2 n q) + t) + B₂ (ix2 n q)) (Finset.sum_congr rfl fun e _ => ?_)
  rw [hS e]
  exact congrArg (S₂ (ix2 e q) * ·) (Finset.sum_congr rfl fun k _ => by rw [hW k])

/-! ## Arrays that do not depend on the column, and vectors joined end to end -/

section ColumnFree

variable {α : Type}

/-- A vector [E] written as a column [E, 1] and repeated along C lanes reads, at (e, c), the vector at e. -/
theorem rowScale_apply {E C : Nat} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (x : (⟨1, ![E]⟩ : Shape).Idx → α) (e : Fin E) (c : Fin C) :
    broadcastInDim ⟨2, ![E, C]⟩ ![0, 1] h2 (broadcastInDim ⟨2, ![E, 1]⟩ ![0] h1 x) (ix2 e c) = x (ix1 e) := by
  rw [broadcastInDim_apply _ h2 _ (ix2 e c) (ix2 e (0 : Fin 1)) (fun a => by
      match a with
      | ⟨0, _⟩ => show e.val = if E = 1 then 0 else e.val; rw [if_neg hE]
      | ⟨1, _⟩ => show 0 = if (1 : Nat) = 1 then 0 else c.val; rw [if_pos rfl]),
    broadcastInDim_apply _ h1 x (ix2 e (0 : Fin 1)) (ix1 e) (fun a => by
      match a with
      | ⟨0, _⟩ => show e.val = if E = 1 then 0 else e.val; rw [if_neg hE])]

/-- A vector [C] written as a row [1, C] and repeated along N rows reads, at (n, c), the vector at c. -/
theorem laneBias_apply {N C : Nat} (hC : C ≠ 1)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : (⟨1, ![C]⟩ : Shape).Idx → α) (n : Fin N) (c : Fin C) :
    broadcastInDim ⟨2, ![N, C]⟩ ![0, 1] h2 (broadcastInDim ⟨2, ![1, C]⟩ ![1] h1 x) (ix2 n c) = x (ix1 c) := by
  rw [broadcastInDim_apply _ h2 _ (ix2 n c) (ix2 (0 : Fin 1) c) (fun a => by
      match a with
      | ⟨0, _⟩ => show 0 = if (1 : Nat) = 1 then 0 else n.val; rw [if_pos rfl]
      | ⟨1, _⟩ => show c.val = if C = 1 then 0 else c.val; rw [if_neg hC]),
    broadcastInDim_apply _ h1 x (ix2 (0 : Fin 1) c) (ix1 c) (fun a => by
      match a with
      | ⟨0, _⟩ => show c.val = if C = 1 then 0 else c.val; rw [if_neg hC])]

/-- The join of a vector [A] and a vector [B] reads, at a position below A, the first vector there. -/
theorem join_left {A B T : Nat} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1)) (q : Fin A) (j : Fin T)
    (hj : j.val = q.val) :
    concatenate ⟨1, ![T]⟩ (0 : Fin 1) [⟨⟨1, ![A]⟩, x₁⟩, ⟨⟨1, ![B]⟩, x₂⟩] h (ix1 j) = x₁ (ix1 q) :=
  concatenate_pair_apply_left (0 : Fin 1) x₁ x₂ h (ix1 j) rfl (ix1 q) (fun b => by
    match b with
    | ⟨0, _⟩ => exact hj.symm)

/-- … and, at position A + q with q below B, the second vector at q. -/
theorem join_right {A B T : Nat} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1)) (q : Fin B) (j : Fin T)
    (hj : j.val = A + q.val) :
    concatenate ⟨1, ![T]⟩ (0 : Fin 1) [⟨⟨1, ![A]⟩, x₁⟩, ⟨⟨1, ![B]⟩, x₂⟩] h (ix1 j) = x₂ (ix1 q) :=
  concatenate_pair_apply_right (0 : Fin 1) x₁ x₂ h (ix1 j) rfl rfl (ix1 q)
    (fun b hb => absurd (Subsingleton.elim _ _) hb) (by show q.val + A = j.val; omega)

end ColumnFree

end Cert.LibFusedColumns

end
-- ==== Proof.LibConvLayer.lean ====
/-
  One layer of a graph convolution with symmetric normalisation, arranged in two ways, over the extended reals.

  Data: node features X : [N, K], weights W : [K, C], a bias, a per-node factor D : [N] (zero, or the reciprocal square
  root of a degree bounded below by a positive constant: in every case a non-negative extended real other than +∞),
  a column of source words and a column of destination words for E edges.

  Arrangement A scales row n of X · W by D[n], gathers the scaled rows by source, scatter-adds them by destination into
  zeros, and then scales row n of the sum by D[n] again and adds the bias.
  Arrangement B gathers the rows of X · W by source, scales the row of edge e by D[src e] · D[dst e], scatter-adds by
  destination into zeros and adds the bias.

  An update lands on row n only when its destination word is n, and there the destination column used by B's gather
  (words made non-negative by adding N to the negative ones) agrees with the raw column the scatter reads. So every
  update that lands on row n carries the factor D[n] in B, and D[n], non-negative and not +∞, distributes over the sum
  of extended reals: the two arrangements agree at every entry, whatever the entries of X and W are.
-/
import Mathlib
import Idealize.ShloMosaic.PureOps.Ideal
import Idealize.ShloMosaic.PureOps.Ideal.Laws
import Idealize.ShloMosaic.Lib.ValueIdx
import Idealize.ShloMosaic.Lib.Pipeline.Value
import Idealize.ShloMosaic.Lib.Affine
import proofs.«157112_j36636071035639_2_alg».proof.Proof.LibRowGather
import proofs.«157112_j36636071035639_2_alg».proof.Proof.LibRowDims
import proofs.«157112_j36636071035639_2_alg».proof.Proof.LibGraphConv
import proofs.«157112_j36636071035639_2_alg».proof.Proof.LibDotRows
import proofs.«157112_j36636071035639_2_alg».proof.Proof.LibFusedColumns

noncomputable section

open scoped BigOperators

namespace Cert.ConvLaw

open Idealize.ShloMosaic Idealize.ShloMosaic.ValueIdx Cert.LibRowGather

/-! ## The per-node factor -/

/-- The f32 word 0x2B8CBCCC (the float nearest 1e-12) is a positive number. -/
theorem floor_pos : (0 : EReal) < Ideal.ofBits .f32 0x2B8CBCCC#32 := by
  simp [Ideal.ofBits, Ideal.ieee, -EReal.coe_mul]

/-- The reciprocal square root of an extended real bounded below by a positive one is non-negative and not +∞. -/
theorem rsqrt_bounds (a y : EReal) (ha : 0 < a) (h : a ≤ y) : 0 ≤ Ideal.rsqrt y ∧ Ideal.rsqrt y ≠ ⊤ := by
  induction y using EReal.rec with
  | bot => exact absurd (lt_of_lt_of_le ha h) (not_lt.mpr bot_le)
  | top => exact ⟨le_refl _, EReal.zero_ne_top⟩
  | coe r =>
    have hr : (0 : ℝ) < r := by exact_mod_cast lt_of_lt_of_le ha h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

/-- Zero, or the reciprocal square root of the larger of y and the positive floor, chosen by a one-bit word: a
    non-negative extended real other than +∞. -/
theorem factor_bounds (b : BitVec 1) (y : EReal) :
    0 ≤ Scalar.select b (Ideal.rsqrt (max y (Ideal.ofBits .f32 0x2B8CBCCC#32))) (Ideal.ofBits .f32 0x00000000#32)
    ∧ Scalar.select b (Ideal.rsqrt (max y (Ideal.ofBits .f32 0x2B8CBCCC#32))) (Ideal.ofBits .f32 0x00000000#32) ≠ ⊤ := by
  by_cases hb : b = 1#1
  · rw [hb, select_one]
    exact rsqrt_bounds _ _ floor_pos (le_max_right _ _)
  · rw [eq_zero_of_ne_one hb, select_zero, Ideal.ofBits_zero_f32]
    exact ⟨le_refl _, EReal.zero_ne_top⟩

/-! ## Index columns -/

/-- A vector [E] written as a column [E, 1] reads, at edge e, the vector at e. -/
theorem col_apply {α : Type} {E : Nat} (hE : E ≠ 1)
    (hb : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ ![0] hb v (edgeIdx e) = v (ix1 e) :=
  broadcastInDim_apply _ hb v (edgeIdx e) (ix1 e) (fun a => by
    match a with
    | ⟨0, _⟩ => show e.val = if E = 1 then 0 else e.val; rw [if_neg hE])

/-- Making a word non-negative (adding k to it when it is negative) leaves a non-negative word as it is. -/
theorem wrap_of_nonneg {s : Shape} (v z k : IVec s 32) (j : s.Idx) (hz : z j = 0#32) (h : 0 ≤ (v j).toInt) :
    select (cmpi .slt v z) (addi v k) v j = v j := by
  rw [select_apply]
  have hc : cmpi .slt v z j = 0#1 := by
    apply eq_zero_of_ne_one
    intro h1
    have h2 : (v j).toInt < (z j).toInt := IntOp.cmpi_slt.mp h1
    rw [hz] at h2
    have h3 : (0#32 : BitVec 32).toInt = 0 := by decide
    omega
  rw [hc, select_zero]

/-! ## Gathers, scatters and products for any record of dimension numbers with the right fields -/

/-- The vector gather at edge e, for any record with the vector-gather fields. -/
theorem gather_vec_dims {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (rowOf N hN (idx (edgeIdx e)))) := by
  obtain ⟨od, cs, ob, sb, sm, iv, ss, wf⟩ := d
  dsimp only at h1 h2 h3 h4 h5 h6 h7
  subst h1 h2 h3 h4 h5 h6 h7
  exact Cert.LibRowGather.gather_vec_apply hN wf x idx e

/-- Entry (p, q) of a kernel's product x · w accumulated into the zero splat is the sum over k of x[p, k] · w[k, q],
    for any record whose fields say "contract axis 1 of the left operand with axis 0 of the right one". -/
theorem matmul_rows_dims {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ φ₁) (w : FVec Ideal ⟨2, ![K, N]⟩ φ₂) (p : Fin M) (q : Fin N) :
    matmul (F := Ideal) d none x w (constant ⟨2, ![M, N]⟩ .f32 0x00000000#32) (ix2 p q)
      = ∑ k : Fin K, x (ix2 p k) * w (ix2 k q) := by
  obtain ⟨lc, rc, ln, rn, lb, rb, wf⟩ := d
  dsimp only at h1 h2 h3 h4 h5 h6
  subst h1 h2 h3 h4 h5 h6
  exact Cert.Lib.DotRows.matmul_plain_apply x w p q

section Layer

variable {N E K C w : Nat} (hN : 0 < N)
  (dD : DotDims ⟨2, ![N, K]⟩ ⟨2, ![K, C]⟩ ⟨2, ![N, C]⟩)
  (hd1 : dD.lhsContracting = [1]) (hd2 : dD.rhsContracting = [0]) (hd3 : dD.lhsNonContracting = [0])
  (hd4 : dD.rhsNonContracting = [1]) (hd5 : dD.lhsBatch = []) (hd6 : dD.rhsBatch = [])
  (gV : GatherDims ⟨1, ![N]⟩ ⟨2, ![E, 1]⟩ ⟨1, ![E]⟩)
  (hv1 : gV.offsetDims = []) (hv2 : gV.collapsedSliceDims = [0]) (hv3 : gV.operandBatchingDims = [])
  (hv4 : gV.startIndicesBatchingDims = []) (hv5 : gV.startIndexMap = [0]) (hv6 : gV.indexVectorDim = 1)
  (hv7 : gV.sliceSizes = ![1])
  (gD : GatherDims ⟨2, ![N, C]⟩ ⟨2, ![E, 1]⟩ ⟨2, ![E, C]⟩)
  (hg1 : gD.offsetDims = [1]) (hg2 : gD.collapsedSliceDims = [0]) (hg3 : gD.operandBatchingDims = [])
  (hg4 : gD.startIndicesBatchingDims = []) (hg5 : gD.startIndexMap = [0]) (hg6 : gD.indexVectorDim = 1)
  (hg7 : gD.sliceSizes = ![1, C])
  (sD : ScatterDims ⟨2, ![N, C]⟩ ⟨2, ![E, 1]⟩ ⟨2, ![E, C]⟩)
  (hs1 : sD.updateWindowDims = [1]) (hs2 : sD.insertedWindowDims = [0]) (hs3 : sD.scatterDimsToOperandDims = [0])
  (hs4 : sD.indexVectorDim = 1)

include hN hv1 hv2 hv3 hv4 hv5 hv6 hv7 hg1 hg2 hg3 hg4 hg5 hg6 hg7 hs1 hs2 hs3 hs4 in
/-- THE LAW, for any records. P : [N, C] and HS = P scaled row by row by D; the updates "rows of P gathered by source
    times D[src] · D[dst]" and "rows of HS gathered by source", scatter-added by destination into zeros, differ at
    entry (n, c) by the factor D[n]. -/
theorem scatter_scale_dims (P HS : FVec Ideal ⟨2, ![N, C]⟩ .f32) (D : FVec Ideal ⟨1, ![N]⟩ .f32)
    (hD : ∀ n : Fin N, 0 ≤ D (ix1 n) ∧ D (ix1 n) ≠ ⊤)
    (hHS : ∀ (n : Fin N) (c : Fin C), HS (ix2 n c) = P (ix2 n c) * D (ix1 n))
    (src dstG dstS : IVec ⟨2, ![E, 1]⟩ w)
    (hdst : ∀ e : Fin E, 0 ≤ (dstS (edgeIdx e)).toInt → dstG (edgeIdx e) = dstS (edgeIdx e))
    (Z : FVec Ideal ⟨2, ![N, C]⟩ .f32) (hZ : ∀ i, Z i = 0)
    (S : FVec Ideal ⟨2, ![E, C]⟩ .f32)
    (hS : ∀ (e : Fin E) (c : Fin C), S (ix2 e c) = Host.gather gV D src (ix1 e) * Host.gather gV D dstG (ix1 e))
    (n : Fin N) (c : Fin C) :
    Host.scatterAdd sD Z dstS (mulf (Host.gather gD P src) S) (ix2 n c)
      = Host.scatterAdd sD Z dstS (Host.gather gD HS src) (ix2 n c) * D (ix1 n) := by
  obtain ⟨od, cs, ob, sb, sm, iv, ss, gwf2⟩ := gD
  dsimp only at hg1 hg2 hg3 hg4 hg5 hg6 hg7
  subst hg1 hg2 hg3 hg4 hg5 hg6 hg7
  obtain ⟨od', cs', ob', sb', sm', iv', ss', gwf1⟩ := gV
  dsimp only at hv1 hv2 hv3 hv4 hv5 hv6 hv7
  subst hv1 hv2 hv3 hv4 hv5 hv6 hv7
  obtain ⟨uw, iw, sd, ivs, swf⟩ := sD
  dsimp only at hs1 hs2 hs3 hs4
  subst hs1 hs2 hs3 hs4
  refine (Cert.LibGraphConv.scatterAdd_rows_scale hN gwf1 gwf2 swf P HS D hD hHS src dstG dstS hdst Z hZ
    (mulf (Host.gather (rowDims N E C gwf2) P src) S) (Host.gather (rowDims N E C gwf2) HS src)
    (fun e c => ?_) (fun e c => rfl) n c).trans (mul_comm _ _)
  show Host.gather (rowDims N E C gwf2) P src (ix2 e c) * S (ix2 e c) = _
  rw [hS]

/-- Row n of X · W scaled by the column entry Dc[n, 0]. -/
def scaledProduct (X : FVec Ideal ⟨2, ![N, K]⟩ .f32) (W : FVec Ideal ⟨2, ![K, C]⟩ .f32)
    (Dc : FVec Ideal ⟨2, ![N, 1]⟩ .f32) : FVec Ideal ⟨2, ![N, C]⟩ .f32 :=
  fun i => (∑ k : Fin K, X (ix2 (i 0) k) * W (ix2 k (i 1))) * Dc (ix2 (i 0) (0 : Fin 1))

/-- Row n of A scaled by Dc[n, 0], plus the bias row. -/
def scaledShift (A : FVec Ideal ⟨2, ![N, C]⟩ .f32) (Dc : FVec Ideal ⟨2, ![N, 1]⟩ .f32)
    (Br : FVec Ideal ⟨2, ![1, C]⟩ .f32) : FVec Ideal ⟨2, ![N, C]⟩ .f32 :=
  fun i => A i * Dc (ix2 (i 0) (0 : Fin 1)) + Br (ix2 (0 : Fin 1) (i 1))

/-- The same, floored at zero. -/
def scaledShiftFloor (A : FVec Ideal ⟨2, ![N, C]⟩ .f32) (Dc : FVec Ideal ⟨2, ![N, 1]⟩ .f32)
    (Br : FVec Ideal ⟨2, ![1, C]⟩ .f32) : FVec Ideal ⟨2, ![N, C]⟩ .f32 :=
  fun i => max (A i * Dc (ix2 (i 0) (0 : Fin 1)) + Br (ix2 (0 : Fin 1) (i 1))) 0

include hN hd1 hd2 hd3 hd4 hd5 hd6 hv1 hv2 hv3 hv4 hv5 hv6 hv7 hg1 hg2 hg3 hg4 hg5 hg6 hg7 hs1 hs2 hs3 hs4 in
/-- ONE LAYER, ARRANGEMENT A = ARRANGEMENT B, at entry (n, c). Dc is D as a column, B is the bias row Br repeated
    along the rows, S[e, c] = D[src e] · D[dst e]. -/
theorem layer_eq (X : FVec Ideal ⟨2, ![N, K]⟩ .f32) (W : FVec Ideal ⟨2, ![K, C]⟩ .f32)
    (D : FVec Ideal ⟨1, ![N]⟩ .f32) (hD : ∀ n : Fin N, 0 ≤ D (ix1 n) ∧ D (ix1 n) ≠ ⊤)
    (Dc : FVec Ideal ⟨2, ![N, 1]⟩ .f32) (hDc : ∀ n : Fin N, Dc (ix2 n (0 : Fin 1)) = D (ix1 n))
    (Br : FVec Ideal ⟨2, ![1, C]⟩ .f32) (B : FVec Ideal ⟨2, ![N, C]⟩ .f32)
    (hB : ∀ (n : Fin N) (c : Fin C), B (ix2 n c) = Br (ix2 (0 : Fin 1) c))
    (src dstG dstS : IVec ⟨2, ![E, 1]⟩ w)
    (hdst : ∀ e : Fin E, 0 ≤ (dstS (edgeIdx e)).toInt → dstG (edgeIdx e) = dstS (edgeIdx e))
    (Z : FVec Ideal ⟨2, ![N, C]⟩ .f32) (hZ : ∀ i, Z i = 0)
    (S : FVec Ideal ⟨2, ![E, C]⟩ .f32)
    (hS : ∀ (e : Fin E) (c : Fin C), S (ix2 e c) = Host.gather gV D src (ix1 e) * Host.gather gV D dstG (ix1 e))
    (n : Fin N) (c : Fin C) :
    scaledShift (Host.scatterAdd sD Z dstS (Host.gather gD (scaledProduct X W Dc) src)) Dc Br (ix2 n c)
      = addf (Host.scatterAdd sD Z dstS (mulf (Host.gather gD (Host.dotGeneral dD none X W) src) S)) B (ix2 n c) := by
  have key := scatter_scale_dims hN gV hv1 hv2 hv3 hv4 hv5 hv6 hv7 gD hg1 hg2 hg3 hg4 hg5 hg6 hg7 sD hs1 hs2 hs3 hs4
    (Host.dotGeneral dD none X W) (scaledProduct X W Dc) D hD
    (fun n' c' => by
      show (∑ k : Fin K, X (ix2 n' k) * W (ix2 k c')) * Dc (ix2 n' (0 : Fin 1)) = _
      rw [hDc, Cert.LibFusedColumns.dotGeneral_rows_apply dD hd1 hd2 hd3 hd4 hd5 hd6])
    src dstG dstS hdst Z hZ S hS n c
  show Host.scatterAdd sD Z dstS (Host.gather gD (scaledProduct X W Dc) src) (ix2 n c) * Dc (ix2 n (0 : Fin 1))
      + Br (ix2 (0 : Fin 1) c)
    = Host.scatterAdd sD Z dstS (mulf (Host.gather gD (Host.dotGeneral dD none X W) src) S) (ix2 n c) + B (ix2 n c)
  rw [hDc, hB, key]

end Layer

end Cert.ConvLaw

end
-- ==== Proof.Terms.lean ====
/-
  The host-side pieces of the idealized kernel's @main as functions of its arguments, and its result as one function.

  From the edge list (a [2, 800000] array of words) @main makes a source vector and a destination vector of 850000 words
  each (row 0, respectively row 1, followed by 0 … 49999: one self-loop per node). The degree of node n is the number
  of destination words equal to n (a scatter-add of ones into zeros). The per-node factor is 0 where the degree is not
  positive and the reciprocal square root of max(degree, 1e-12) elsewhere. A layer takes node features H, scales
  row n of H · W by the factor of n, gathers the scaled rows through the source words (negative words first made
  non-negative by adding 50000), scatter-adds them through the destination words into zeros, scales row n of the sum by
  the factor of n again and adds the bias. The result is the second layer (128 columns) of the first layer's result
  floored at zero (256 columns).
-/
import proofs.«157112_j36636071035639_2_alg».proof.KernelIdeal
import proofs.«157112_j36636071035639_2_alg».proof.Proof.Gen.KernelIdeal
import Idealize.ShloMosaic.Lib.ValueIdx
import proofs.«157112_j36636071035639_2_alg».proof.Proof.LibConvLayer

noncomputable section

namespace Cert.KernelIdeal.Terms

open Cert.KernelIdeal Cert.KernelIdeal.Facts₀ Cert.KernelIdeal.Facts Idealize.ShloMosaic Idealize.ShloMosaic.ValueIdx Cert.ConvLaw

/-- Row r of the edge list followed by 0 … 49999. -/
def srcWord (a1 : IVec S2x800000 32) : IVec S850000 32 :=
  concatenate S850000 0 [⟨S800000, (shapeCast _ (extractStridedSlice S1x800000 ![0, 0] a1 slices_S2x800000_S1x800000_0_0) shapeCasts_S1x800000_S800000)⟩, ⟨S50000, (iotaInDim S50000 32 0)⟩] concatenates_S800000_S50000_S850000_d0

def dstWord (a1 : IVec S2x800000 32) : IVec S850000 32 :=
  concatenate S850000 0 [⟨S800000, (shapeCast _ (extractStridedSlice S1x800000 ![1, 0] a1 slices_S2x800000_S1x800000_1_0) shapeCasts_S1x800000_S800000)⟩, ⟨S50000, (iotaInDim S50000 32 0)⟩] concatenates_S800000_S50000_S850000_d0

/-- Negative words moved up by 50000. -/
def nonneg (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A vector of words as an index column. -/
def col (v : IVec S850000 32) : IVec S850000x1 32 := broadcastInDim S850000x1 ![0] bcast_S850000_S850000x1_0 v

/-- The number of destination words equal to each node. -/
def degree (a1 : IVec S2x800000 32) : FVec Ideal S50000 .f32 :=
  Host.scatterAdd scatter_S50000_S850000x1_S850000_n_0_0_1
    (broadcastInDim S50000 ![] bcast_S_S50000 (constant S_ .f32 0x00000000#32)) (col (dstWord a1))
    (broadcastInDim S850000 ![] bcast_S_S850000 (constant S_ .f32 0x3F800000#32))

/-- The per-node factor. -/
def dinv (a1 : IVec S2x800000 32) : FVec Ideal S50000 .f32 :=
  select (cmpf .ogt (degree a1) (broadcastInDim S50000 ![] bcast_S_S50000 (constant S_ .f32 0x00000000#32)))
    (Host.rsqrt (maximumf (degree a1) (broadcastInDim S50000 ![] bcast_S_S50000 (constant S_ .f32 0x2B8CBCCC#32))))
    (broadcastInDim S50000 ![] bcast_S_S50000 (id (constant S_ .f32 0x00000000#32)))

/-- The factor as a column [50000, 1]. -/
def dcol (a1 : IVec S2x800000 32) : FVec Ideal S50000x1 .f32 := shapeCast S50000x1 (dinv a1) shapeCasts_S50000_S50000x1

/-- A bias vector as a row. -/
def brow256 (b : FVec Ideal S256 .f32) : FVec Ideal S1x256 .f32 := shapeCast S1x256 b shapeCasts_S256_S1x256
def brow128 (b : FVec Ideal S128 .f32) : FVec Ideal S1x128 .f32 := shapeCast S1x128 b shapeCasts_S128_S1x128

/-- Rows gathered through the source words and scatter-added through the destination words into zeros. -/
def agg256 (H : FVec Ideal S50000x256 .f32) (a1 : IVec S2x800000 32) : FVec Ideal S50000x256 .f32 :=
  Host.scatterAdd scatter_S50000x256_S850000x1_S850000x256_1_0_0_1
    (broadcastInDim S50000x256 ![] bcast_S_S50000x256 (constant S_ .f32 0x00000000#32)) (col (dstWord a1))
    (Host.gather gather_S50000x256_S850000x1_S850000x256_1_0_n_n_0_1_1256 H (col (nonneg (srcWord a1))))

def agg128 (H : FVec Ideal S50000x128 .f32) (a1 : IVec S2x800000 32) : FVec Ideal S50000x128 .f32 :=
  Host.scatterAdd scatter_S50000x128_S850000x1_S850000x128_1_0_0_1
    (broadcastInDim S50000x128 ![] bcast_S_S50000x128 (constant S_ .f32 0x00000000#32)) (col (dstWord a1))
    (Host.gather gather_S50000x128_S850000x1_S850000x128_1_0_n_n_0_1_1128 H (col (nonneg (srcWord a1))))

/-- The first layer's result, floored at zero. -/
def hidden (a0 : FVec Ideal S50000x256 .f32) (a1 : IVec S2x800000 32) (a2 : FVec Ideal S256x256 .f32)
    (a3 : FVec Ideal S256 .f32) : FVec Ideal S50000x256 .f32 :=
  scaledShiftFloor (agg256 (scaledProduct a0 a2 (dcol a1)) a1) (dcol a1) (brow256 a3)

/-- THE KERNEL'S RESULT as one function of its six arguments. -/
def kernelOut (a0 : FVec Ideal S50000x256 .f32) (a1 : IVec S2x800000 32) (a2 : FVec Ideal S256x256 .f32)
    (a3 : FVec Ideal S256 .f32) (a4 : FVec Ideal S256x128 .f32) (a5 : FVec Ideal S128 .f32) : FVec Ideal S50000x128 .f32 :=
  scaledShift (agg128 (scaledProduct (hidden a0 a1 a2 a3) a4 (dcol a1)) a1) (dcol a1) (brow128 a5)

end Cert.KernelIdeal.Terms

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.Region0.lean ====
/-
  Region 0 of the idealized kernel as one function of the arrays it finds.

  The region's grid has 10 points. Point t stages rows 5000·t … 5000·t + 4999 of the [50000, 256] input, the whole
  [256, 256] weight matrix and the same rows of the [50000, 1] column; its body multiplies the staged rows by the
  weights (a product accumulated into zeros; the change of float format in front of it is the identity on extended
  reals) and scales row p of the product by the column's entry p; the result is written back as rows
  5000·t … 5000·t + 4999 of the [50000, 256] output. The ten blocks of rows tile the output, so after the last point
  the output array is, at (n, c), the sum over k of in[n, k] · w[k, c], times col[n, 0].
-/
import proofs.«157112_j36636071035639_2_alg».proof.Proof.Gen.KernelIdeal.Frame
import Idealize.ShloMosaic.Lib.Pipeline.Value
import Idealize.ShloMosaic.Lib.ValueIdx
import proofs.«157112_j36636071035639_2_alg».proof.Proof.LibConvLayer
import proofs.«157112_j36636071035639_2_alg».proof.Proof.LibColBroadcast

set_option maxRecDepth 16384

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open Cert.ConvLaw

theorem hz : (![0, 0] : Fin 2 → Nat) = fun _ => 0 := funext fun a => by fin_cases a <;> rfl

/-- The body's stored value at (p, q): row p of the staged rows times column q of the weights, scaled by entry p of the
    staged column. -/
theorem pay_apply (x0 : Vec Ideal S5000x256 .f32) (x1 : Vec Ideal S256x256 .f32) (x2 : Vec Ideal S5000x1 .f32)
    (p : Fin 5000) (q : Fin 256) :
    k0_pay1 x0 x1 x2 (ix2 p q) = (∑ k : Fin 256, x0 (ix2 p k) * x1 (ix2 k q)) * x2 (ix2 p (0 : Fin 1)) := by
  unfold k0_pay1
  show matmul (F := Ideal) dot_S5000x256_S256x256_S5000x256_1_0_0_1_n_n none (truncf .bf16 x0 bitsLt_bf16_f32)
      (truncf .bf16 x1 bitsLt_bf16_f32) (constant S5000x256 .f32 0x00000000#32) (ix2 p q)
    * broadcastTo S5000x256 (shapeCast S5000x1 x2 shapeCasts_S5000x1_S5000x1) broadcasts_S5000x1_S5000x256 (ix2 p q) = _
  rw [shapeCast_self, Cert.LibColBroadcast.broadcastTo_a1_ab_apply, matmul_rows_dims _ rfl rfl rfl rfl rfl rfl]
  rfl

/-- The same at any position of the block, against arrays that hold the staged values where the position says. -/
theorem point_eq (x0 : Vec Ideal S5000x256 .f32) (x1 : Vec Ideal S256x256 .f32) (x2 : Vec Ideal S5000x1 .f32)
    (A0 : S50000x256.Idx → EReal) (A1 : S256x256.Idx → EReal) (A2 : S50000x1.Idx → EReal)
    (j : S5000x256.Idx) (i : S50000x256.Idx)
    (h0 : ∀ k : Fin 256, x0 (ix2 (j 0) k) = A0 (ix2 (i 0) k))
    (h1 : ∀ k : Fin 256, x1 (ix2 k (j 1)) = A1 (ix2 k (i 1)))
    (h2 : x2 (ix2 (j 0) (0 : Fin 1)) = A2 (ix2 (i 0) (0 : Fin 1))) :
    k0_pay1 x0 x1 x2 j = scaledProduct A0 A1 A2 i := by
  obtain ⟨p, q, rfl⟩ : ∃ (p : Fin 5000) (q : Fin 256), j = ix2 p q := ⟨j 0, j 1, eq_ix2 j⟩
  rw [pay_apply]
  show _ = (∑ k : Fin 256, A0 (ix2 (i 0) k) * A1 (ix2 k (i 1))) * A2 (ix2 (i 0) (0 : Fin 1))
  rw [← h2]
  refine congrArg (· * x2 (ix2 p (0 : Fin 1))) (Finset.sum_congr rfl fun k _ => ?_)
  rw [← h0 k, ← h1 k]

variable (V : (c : Dev nD) → (b : Ref sig .tc) → Buf (Elt Ideal) ((c : Thread nD τ).loc b))

/-- The printed index maps over the grid: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function of the arrays the region finds. -/
theorem flushed_eq (c : Dev nD) (t : Fin cfg0.N) :
    (dat0 V c).flushed 3 t = ((cfg0.win 3).blk t).view.read (Elt Ideal)
      (scaledProduct (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S5000x1) hz]
  obtain ⟨e00, e01, e10, e11, e20, e21, e30, e31⟩ := idx_facts t
  funext j
  show k0_pay1 (iblk0 V c 0 t) (iblk0 V c 1 t) (iblk0 V c 2 t) j
    = scaledProduct (V c main_arg0) (V c main_arg2) (V c main_v17) (((cfg0.win 3).blk t).view.emb j)
  refine point_eq _ _ _ _ _ _ j _ (fun k => ?_) (fun k => ?_) ?_
  · show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 256 + 1 * k.val = k.val
      omega
  · show V c main_arg2 (((cfg0.win 1).blk t).view.emb (ix2 k (j 1))) = V c main_arg2 (ix2 k ((((cfg0.win 3).blk t).view.emb j) 1))
    refine congrArg _ (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_3.index t (1 : Fin 2) * 256 + 1 * (j 1).val
      omega
  · show V c main_v17 (((cfg0.win 2).blk t).view.emb (ix2 (j 0) (0 : Fin 1))) = V c main_v17 (ix2 ((((cfg0.win 3).blk t).view.emb j) 0) (0 : Fin 1))
    refine congrArg _ (funext fun a => Fin.ext ?_)
    match a with
    | ⟨0, _⟩ =>
      show win0_2.index t (0 : Fin 2) * 5000 + 1 * (j 0).val = win0_3.index t (0 : Fin 2) * 5000 + 1 * (j 0).val
      omega
    | ⟨1, _⟩ =>
      show win0_2.index t (1 : Fin 2) * 1 + 1 * 0 = 0
      omega

/-- An index of the output array is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v18).slice (win0_3.rect t)).set ↔ _
  rw [View.set_slice_whole, Rect.mem_set_unit]
  exact Iff.rfl

/-- Every index of the output array is in the block of the point that holds its row. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 10 := N_0
  have ht : (i 0).val / 5000 < cfg0.N := by show (i 0).val / 5000 < grid0.N; omega
  refine ⟨⟨(i 0).val / 5000, ht⟩, flush0_3 _, ?_⟩
  rw [mem_blk]
  obtain ⟨-, -, -, -, -, -, e30, e31⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 256 ≤ (i 1).val
      ∧ (i 1).val < win0_3.index ⟨(i 0).val / 5000, ht⟩ (1 : Fin 2) * 256 + 256
    rw [e31]
    omega

/-- THE OUTPUT ARRAY after the region's last point. -/
theorem arr_eq (c : Dev nD) :
    (dat0 V c).arrAt 3 cfg0.N = scaledProduct (V c main_arg0) (V c main_arg2) (V c main_v17) :=
  (dat0 V c).arrAt_eq_of_cover 3 _ (fun t _ => flushed_eq V c t) cover

end Cert.KernelIdeal.Reg0

end
-- ==== Proof.Region1.lean ====
/-
  Region 1 of the idealized kernel as one function of the arrays it finds.

  The region's grid has 10 points. Point t stages rows 5000·t … 5000·t + 4999 of the [50000, 256] input and of the
  [50000, 1] column, and the whole [1, 256] bias row; its body scales row p of the staged rows by the column's entry p
  and adds the bias row, then takes the larger of that and zero; the result is written back as rows 5000·t … 5000·t + 4999 of the
  [50000, 256] output. The ten blocks of rows tile the output, so after the last point the output array is, at (n, c),
  max (in[n, c] · col[n, 0] + bias[0, c], 0).
-/
import proofs.«157112_j36636071035639_2_alg».proof.Proof.Gen.KernelIdeal.Frame
import Idealize.ShloMosaic.Lib.Pipeline.Value
import Idealize.ShloMosaic.Lib.ValueIdx
import Idealize.ShloMosaic.Lib.ValueLayout
import proofs.«157112_j36636071035639_2_alg».proof.Proof.LibConvLayer
import proofs.«157112_j36636071035639_2_alg».proof.Proof.LibColBroadcast

set_option maxRecDepth 16384

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open Cert.ConvLaw

theorem hz : (![0, 0] : Fin 2 → Nat) = fun _ => 0 := funext fun a => by fin_cases a <;> rfl

/-- The body's stored value at (p, q). -/
theorem pay_apply (x0 : Vec Ideal S5000x256 .f32) (x1 : Vec Ideal S5000x1 .f32) (x2 : Vec Ideal S1x256 .f32)
    (p : Fin 5000) (q : Fin 256) :
    k1_pay1 x0 x1 x2 (ix2 p q) = max (x0 (ix2 p q) * x1 (ix2 p (0 : Fin 1)) + x2 (ix2 (0 : Fin 1) q)) 0 := by
  unfold k1_pay1
  show max (shapeCast S5000x256 x0 shapeCasts_S5000x256_S5000x256 (ix2 p q)
        * broadcastTo S5000x256 (shapeCast S5000x1 x1 shapeCasts_S5000x1_S5000x1) broadcasts_S5000x1_S5000x256 (ix2 p q)
      + broadcastTo S5000x256 (shapeCast S1x256 x2 shapeCasts_S1x256_S1x256) broadcasts_S1x256_S5000x256 (ix2 p q))
      (Ideal.ofBits .f32 0x00000000#32) = _
  rw [shapeCast_self, shapeCast_self, shapeCast_self, Cert.LibColBroadcast.broadcastTo_a1_ab_apply, broadcastTo_1b_ab_apply, Ideal.ofBits_zero_f32]

/-- The same at any position of the block, against arrays that hold the staged values where the position says. -/
theorem point_eq (x0 : Vec Ideal S5000x256 .f32) (x1 : Vec Ideal S5000x1 .f32) (x2 : Vec Ideal S1x256 .f32)
    (A0 : S50000x256.Idx → EReal) (A1 : S50000x1.Idx → EReal) (A2 : S1x256.Idx → EReal)
    (j : S5000x256.Idx) (i : S50000x256.Idx)
    (h0 : x0 (ix2 (j 0) (j 1)) = A0 i)
    (h1 : x1 (ix2 (j 0) (0 : Fin 1)) = A1 (ix2 (i 0) (0 : Fin 1)))
    (h2 : x2 (ix2 (0 : Fin 1) (j 1)) = A2 (ix2 (0 : Fin 1) (i 1))) :
    k1_pay1 x0 x1 x2 j = scaledShiftFloor A0 A1 A2 i := by
  obtain ⟨p, q, rfl⟩ : ∃ (p : Fin 5000) (q : Fin 256), j = ix2 p q := ⟨j 0, j 1, eq_ix2 j⟩
  rw [pay_apply]
  show _ = max (A0 i * A1 (ix2 (i 0) (0 : Fin 1)) + A2 (ix2 (0 : Fin 1) (i 1))) 0
  rw [← h0, ← h1, ← h2]

variable (V : (c : Dev nD) → (b : Ref sig .tc) → Buf (Elt Ideal) ((c : Thread nD τ).loc b))

/-- The printed index maps over the grid: the row blocks move with the point, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function of the arrays the region finds. -/
theorem flushed_eq (c : Dev nD) (t : Fin cfg1.N) :
    (dat1 V c).flushed 3 t = ((cfg1.win 3).blk t).view.read (Elt Ideal)
      (scaledShiftFloor (V c main_v28) (V c main_v29) (V c main_v30)) := by
  show (cfg1.win 3).cut (grid1.coords t) ((dat1 V c).after 3 t) = _
  rw [after1_3]
  unfold out1_3
  rw [View.canon_unit_zero hz]
  simp only [View.ld_unit_zero (S := S5000x256) hz, View.ld_unit_zero (S := S5000x1) hz, View.ld_unit_zero (S := S1x256) hz]
  obtain ⟨e00, e01, e10, e11, e20, e21, e30, e31⟩ := idx_facts t
  funext j
  show k1_pay1 (iblk1 V c 0 t) (iblk1 V c 1 t) (iblk1 V c 2 t) j
    = scaledShiftFloor (V c main_v28) (V c main_v29) (V c main_v30) (((cfg1.win 3).blk t).view.emb j)
  refine point_eq _ _ _ _ _ _ j _ ?_ ?_ ?_
  · show V c main_v28 (((cfg1.win 0).blk t).view.emb (ix2 (j 0) (j 1))) = V c main_v28 (((cfg1.win 3).blk t).view.emb j)
    refine congrArg _ (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 256 + 1 * (j 1).val = win1_3.index t (1 : Fin 2) * 256 + 1 * (j 1).val
      omega
  · show V c main_v29 (((cfg1.win 1).blk t).view.emb (ix2 (j 0) (0 : Fin 1))) = V c main_v29 (ix2 ((((cfg1.win 3).blk t).view.emb j) 0) (0 : Fin 1))
    refine congrArg _ (funext fun a => Fin.ext ?_)
    match a with
    | ⟨0, _⟩ =>
      show win1_1.index t (0 : Fin 2) * 5000 + 1 * (j 0).val = win1_3.index t (0 : Fin 2) * 5000 + 1 * (j 0).val
      omega
    | ⟨1, _⟩ =>
      show win1_1.index t (1 : Fin 2) * 1 + 1 * 0 = 0
      omega
  · show V c main_v30 (((cfg1.win 2).blk t).view.emb (ix2 (0 : Fin 1) (j 1))) = V c main_v30 (ix2 (0 : Fin 1) ((((cfg1.win 3).blk t).view.emb j) 1))
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 256 + 1 * (j 1).val = win1_3.index t (1 : Fin 2) * 256 + 1 * (j 1).val
      omega

/-- An index of the output array is in point t's block iff each coordinate is in the block's range on its axis. -/
theorem mem_blk (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v31).slice (win1_3.rect t)).set ↔ _
  rw [View.set_slice_whole, Rect.mem_set_unit]
  exact Iff.rfl

/-- Every index of the output array is in the block of the point that holds its row. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 10 := N_1
  have ht : (i 0).val / 5000 < cfg1.N := by show (i 0).val / 5000 < grid1.N; omega
  refine ⟨⟨(i 0).val / 5000, ht⟩, flush1_3 _, ?_⟩
  rw [mem_blk]
  obtain ⟨-, -, -, -, -, -, e30, e31⟩ := idx_facts ⟨(i 0).val / 5000, ht⟩
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 256 ≤ (i 1).val
      ∧ (i 1).val < win1_3.index ⟨(i 0).val / 5000, ht⟩ (1 : Fin 2) * 256 + 256
    rw [e31]
    omega

/-- THE OUTPUT ARRAY after the region's last point. -/
theorem arr_eq (c : Dev nD) :
    (dat1 V c).arrAt 3 cfg1.N = scaledShiftFloor (V c main_v28) (V c main_v29) (V c main_v30) :=
  (dat1 V c).arrAt_eq_of_cover 3 _ (fun t _ => flushed_eq V c t) cover

end Cert.KernelIdeal.Reg1

end
-- ==== Proof.Region2.lean ====
/-
  Region 2 of the idealized kernel as one function of the arrays it finds.

  The region's grid has 10 points. Point t stages rows 5000·t … 5000·t + 4999 of the [50000, 256] input, the whole
  [256, 128] weight matrix and the same rows of the [50000, 1] column; its body multiplies the staged rows by the
  weights (a product accumulated into zeros; the change of float format in front of it is the identity on extended
  reals) and scales row p of the product by the column's entry p; the result is written back as rows
  5000·t … 5000·t + 4999 of the [50000, 128] output. The ten blocks of rows tile the output, so after the last point
  the output array is, at (n, c), the sum over k of in[n, k] · w[k, c], times col[n, 0].
-/
import proofs.«157112_j36636071035639_2_alg».proof.Proof.Gen.KernelIdeal.Frame
import Idealize.ShloMosaic.Lib.Pipeline.Value
import Idealize.ShloMosaic.Lib.ValueIdx
import proofs.«157112_j36636071035639_2_alg».proof.Proof.LibConvLayer
import proofs.«157112_j36636071035639_2_alg».proof.Proof.LibColBroadcast

set_option maxRecDepth 16384

noncomputable section

open scoped BigOperators

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)
open Cert.ConvLaw

theorem hz : (![0, 0] : Fin 2 → Nat) = fun _ => 0 := funext fun a => by fin_cases a <;> rfl

/-- The body's stored value at (p, q): row p of the staged rows times column q of the weights, scaled by entry p of the
    staged column. -/
theorem pay_apply (x0 : Vec Ideal S5000x256 .f32) (x1 : Vec Ideal S256x128 .f32) (x2 : Vec Ideal S5000x1 .f32)
    (p : Fin 5000) (q : Fin 128) :
    k2_pay1 x0 x1 x2 (ix2 p q) = (∑ k : Fin 256, x0 (ix2 p k) * x1 (ix2 k q)) * x2 (ix2 p (0 : Fin 1)) := by
  unfold k2_pay1
  show matmul (F := Ideal) dot_S5000x256_S256x128_S5000x128_1_0_0_1_n_n none (truncf .bf16 (shapeCast S5000x256 x0 shapeCasts_S5000x256_S5000x256) bitsLt_bf16_f32)
      (truncf .bf16 x1 bitsLt_bf16_f32) (constant S5000x128 .f32 0x00000000#32) (ix2 p q)
    * broadcastTo S5000x128 (shapeCast S5000x1 x2 shapeCasts_S5000x1_S5000x1) broadcasts_S5000x1_S5000x128 (ix2 p q) = _
  rw [shapeCast_self, shapeCast_self, Cert.LibColBroadcast.broadcastTo_a1_ab_apply, matmul_rows_dims _ rfl rfl rfl rfl rfl rfl]
  rfl

/-- The same at any position of the block, against arrays that hold the staged values where the position says. -/
theorem point_eq (x0 : Vec Ideal S5000x256 .f32) (x1 : Vec Ideal S256x128 .f32) (x2 : Vec Ideal S5000x1 .f32)
    (A0 : S50000x256.Idx → EReal) (A1 : S256x128.Idx → EReal) (A2 : S50000x1.Idx → EReal)
    (j : S5000x128.Idx) (i : S50000x128.Idx)
    (h0 : ∀ k : Fin 256, x0 (ix2 (j 0) k) = A0 (ix2 (i 0) k))
    (h1 : ∀ k : Fin 256, x1 (ix2 k (j 1)) = A1 (ix2 k (i 1)))
    (h2 : x2 (ix2 (j 0) (0 : Fin 1)) = A2 (ix2 (i 0) (0 : Fin 1))) :
    k2_pay1 x0 x1 x2 j = scaledProduct A0 A1 A2 i := by
  obtain ⟨p, q, rfl⟩ : ∃ (p : Fin 5000) (q : Fin 128), j = ix2 p q := ⟨j 0, j 1, eq_ix2 j⟩
  rw [pay_apply]
  show _ = (∑ k : Fin 256, A0 (ix2 (i 0) k) * A1 (ix2 k (i 1))) * A2 (ix2 (i 0) (0 : Fin 1))
  rw [← h2]
  refine congrArg (· * x2 (ix2 p (0 : Fin 1))) (Finset.sum_congr rfl fun k _ => ?_)
  rw [← h0 k, ← h1 k]

variable (V : (c : Dev nD) → (b : Ref sig .tc) → Buf (Elt Ideal) ((c : Thread nD τ).loc b))

/-- The printed index maps over the grid: the row blocks move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function of the arrays the region finds. -/
theorem flushed_eq (c : Dev nD) (t : Fin cfg2.N) :
    (dat2 V c).flushed 3 t = ((cfg2.win 3).blk t).view.read (Elt Ideal)
      (scaledProduct (V c main_v31) (V c main_arg4) (V c main_v32)) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x128) hz, View.ld_unit_zero (S := S5000x1) hz]
  obtain ⟨e00, e01, e10, e11, e20, e21, e30, e31⟩ := idx_facts t
  funext j
  show k2_pay1 (iblk2 V c 0 t) (iblk2 V c 1 t) (iblk2 V c 2 t) j
    = scaledProduct (V c main_v31) (V c main_arg4) (V c main_v32) (((cfg2.win 3).blk t).view.emb j)
  refine point_eq _ _ _ _ _ _ j _ (fun k => ?_) (fun k => ?_) ?_
  · show V c main_v31 (((cfg2.win 0).blk t).view.emb (ix2 (j 0) k)) = V c main_v31 (ix2 ((((cfg2.win 3).blk t).view.emb j) 0) k)
    refine congrArg _ (funext fun a => Fin.ext ?_)
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 256 + 1 * k.val = k.val
      omega
  · show V c main_arg4 (((cfg2.win 1).blk t).view.emb (ix2 k (j 1))) = V c main_arg4 (ix2 k ((((cfg2.win 3).blk t).view.emb j) 1))
    refine congrArg _ (funext fun a => Fin.ext ?_)
    match a with
    | ⟨0, _⟩ =>
      show win2_1.index t (0 : Fin 2) * 256 + 1 * k.val = k.val
      omega
    | ⟨1, _⟩ =>
      show win2_1.index t (1 : Fin 2) * 128 + 1 * (j 1).val = win2_3.index t (1 : Fin 2) * 128 + 1 * (j 1).val
      omega
  · show V c main_v32 (((cfg2.win 2).blk t).view.emb (ix2 (j 0) (0 : Fin 1))) = V c main_v32 (ix2 ((((cfg2.win 3).blk t).view.emb j) 0) (0 : Fin 1))
    refine congrArg _ (funext fun a => Fin.ext ?_)
    match a with
    | ⟨0, _⟩ =>
      show win2_2.index t (0 : Fin 2) * 5000 + 1 * (j 0).val = win2_3.index t (0 : Fin 2) * 5000 + 1 * (j 0).val
      omega
    | ⟨1, _⟩ =>
      show win2_2.index t (1 : Fin 2) * 1 + 1 * 0 = 0
      omega

/-- An index of the output array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v33).slice (win2_3.rect t)).set ↔ _
  rw [View.set_slice_whole, Rect.mem_set_unit]
  exact Iff.rfl

/-- Every index of the output array is in the block of the point that holds its row. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have ht : (i 0).val / 5000 < cfg2.N := by show (i 0).val / 5000 < grid2.N; omega
  refine ⟨⟨(i 0).val / 5000, ht⟩, flush2_3 _, ?_⟩
  rw [mem_blk]
  obtain ⟨-, -, -, -, -, -, e30, e31⟩ := idx_facts ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e31]
    omega

/-- THE OUTPUT ARRAY after the region's last point. -/
theorem arr_eq (c : Dev nD) :
    (dat2 V c).arrAt 3 cfg2.N = scaledProduct (V c main_v31) (V c main_arg4) (V c main_v32) :=
  (dat2 V c).arrAt_eq_of_cover 3 _ (fun t _ => flushed_eq V c t) cover

end Cert.KernelIdeal.Reg2

end
-- ==== Proof.Region3.lean ====
/-
  Region 3 of the idealized kernel as one function of the arrays it finds.

  The region's grid has 10 points. Point t stages rows 5000·t … 5000·t + 4999 of the [50000, 128] input and of the
  [50000, 1] column, and the whole [1, 128] bias row; its body scales row p of the staged rows by the column's entry p
  and adds the bias row; the result is written back as rows 5000·t … 5000·t + 4999 of the
  [50000, 128] output. The ten blocks of rows tile the output, so after the last point the output array is, at (n, c),
  in[n, c] · col[n, 0] + bias[0, c].
-/
import proofs.«157112_j36636071035639_2_alg».proof.Proof.Gen.KernelIdeal.Frame
import Idealize.ShloMosaic.Lib.Pipeline.Value
import Idealize.ShloMosaic.Lib.ValueIdx
import Idealize.ShloMosaic.Lib.ValueLayout
import proofs.«157112_j36636071035639_2_alg».proof.Proof.LibConvLayer
import proofs.«157112_j36636071035639_2_alg».proof.Proof.LibColBroadcast

set_option maxRecDepth 16384

noncomputable section

open scoped BigOperators

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)
open Cert.ConvLaw

theorem hz : (![0, 0] : Fin 2 → Nat) = fun _ => 0 := funext fun a => by fin_cases a <;> rfl

/-- The body's stored value at (p, q). -/
theorem pay_apply (x0 : Vec Ideal S5000x128 .f32) (x1 : Vec Ideal S5000x1 .f32) (x2 : Vec Ideal S1x128 .f32)
    (p : Fin 5000) (q : Fin 128) :
    k3_pay1 x0 x1 x2 (ix2 p q) = x0 (ix2 p q) * x1 (ix2 p (0 : Fin 1)) + x2 (ix2 (0 : Fin 1) q) := by
  unfold k3_pay1
  show shapeCast S5000x128 x0 shapeCasts_S5000x128_S5000x128 (ix2 p q)
        * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q) = _
  rw [shapeCast_self, shapeCast_self, shapeCast_self, Cert.LibColBroadcast.broadcastTo_a1_ab_apply, broadcastTo_1b_ab_apply]

/-- The same at any position of the block, against arrays that hold the staged values where the position says. -/
theorem point_eq (x0 : Vec Ideal S5000x128 .f32) (x1 : Vec Ideal S5000x1 .f32) (x2 : Vec Ideal S1x128 .f32)
    (A0 : S50000x128.Idx → EReal) (A1 : S50000x1.Idx → EReal) (A2 : S1x128.Idx → EReal)
    (j : S5000x128.Idx) (i : S50000x128.Idx)
    (h0 : x0 (ix2 (j 0) (j 1)) = A0 i)
    (h1 : x1 (ix2 (j 0) (0 : Fin 1)) = A1 (ix2 (i 0) (0 : Fin 1)))
    (h2 : x2 (ix2 (0 : Fin 1) (j 1)) = A2 (ix2 (0 : Fin 1) (i 1))) :
    k3_pay1 x0 x1 x2 j = scaledShift A0 A1 A2 i := by
  obtain ⟨p, q, rfl⟩ : ∃ (p : Fin 5000) (q : Fin 128), j = ix2 p q := ⟨j 0, j 1, eq_ix2 j⟩
  rw [pay_apply]
  show _ = A0 i * A1 (ix2 (i 0) (0 : Fin 1)) + A2 (ix2 (0 : Fin 1) (i 1))
  rw [← h0, ← h1, ← h2]

variable (V : (c : Dev nD) → (b : Ref sig .tc) → Buf (Elt Ideal) ((c : Thread nD τ).loc b))

/-- The printed index maps over the grid: the row blocks move with the point, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the whole-array function of the arrays the region finds. -/
theorem flushed_eq (c : Dev nD) (t : Fin cfg3.N) :
    (dat3 V c).flushed 3 t = ((cfg3.win 3).blk t).view.read (Elt Ideal)
      (scaledShift (V c main_v43) (V c main_v44) (V c main_v45)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  obtain ⟨e00, e01, e10, e11, e20, e21, e30, e31⟩ := idx_facts t
  funext j
  show k3_pay1 (iblk3 V c 0 t) (iblk3 V c 1 t) (iblk3 V c 2 t) j
    = scaledShift (V c main_v43) (V c main_v44) (V c main_v45) (((cfg3.win 3).blk t).view.emb j)
  refine point_eq _ _ _ _ _ _ j _ ?_ ?_ ?_
  · show V c main_v43 (((cfg3.win 0).blk t).view.emb (ix2 (j 0) (j 1))) = V c main_v43 (((cfg3.win 3).blk t).view.emb j)
    refine congrArg _ (funext fun a => Fin.ext ?_)
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 128 + 1 * (j 1).val = win3_3.index t (1 : Fin 2) * 128 + 1 * (j 1).val
      omega
  · show V c main_v44 (((cfg3.win 1).blk t).view.emb (ix2 (j 0) (0 : Fin 1))) = V c main_v44 (ix2 ((((cfg3.win 3).blk t).view.emb j) 0) (0 : Fin 1))
    refine congrArg _ (funext fun a => Fin.ext ?_)
    match a with
    | ⟨0, _⟩ =>
      show win3_1.index t (0 : Fin 2) * 5000 + 1 * (j 0).val = win3_3.index t (0 : Fin 2) * 5000 + 1 * (j 0).val
      omega
    | ⟨1, _⟩ =>
      show win3_1.index t (1 : Fin 2) * 1 + 1 * 0 = 0
      omega
  · show V c main_v45 (((cfg3.win 2).blk t).view.emb (ix2 (0 : Fin 1) (j 1))) = V c main_v45 (ix2 (0 : Fin 1) ((((cfg3.win 3).blk t).view.emb j) 1))
    refine congrArg _ (funext fun a => Fin.ext ?_)
    match a with
    | ⟨0, _⟩ =>
      show win3_2.index t (0 : Fin 2) * 1 + 1 * 0 = 0
      omega
    | ⟨1, _⟩ =>
      show win3_2.index t (1 : Fin 2) * 128 + 1 * (j 1).val = win3_3.index t (1 : Fin 2) * 128 + 1 * (j 1).val
      omega

/-- An index of the output array is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v46).slice (win3_3.rect t)).set ↔ _
  rw [View.set_slice_whole, Rect.mem_set_unit]
  exact Iff.rfl

/-- Every index of the output array is in the block of the point that holds its row. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; omega
  refine ⟨⟨(i 0).val / 5000, ht⟩, flush3_3 _, ?_⟩
  rw [mem_blk]
  obtain ⟨-, -, -, -, -, -, e30, e31⟩ := idx_facts ⟨(i 0).val / 5000, ht⟩
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e31]
    omega

/-- THE OUTPUT ARRAY after the region's last point. -/
theorem arr_eq (c : Dev nD) :
    (dat3 V c).arrAt 3 cfg3.N = scaledShift (V c main_v43) (V c main_v44) (V c main_v45) :=
  (dat3 V c).arrAt_eq_of_cover 3 _ (fun t _ => flushed_eq V c t) cover

end Cert.KernelIdeal.Reg3

end
-- ==== Proof.KValue.lean ====
/-
  The idealized kernel's result buffer, read through @main.

  @main's buffers are followed from the launch to the return: a stretch of host operations rewrites the buffers it
  writes with its operations' values and leaves the others; a region leaves each of its output arrays at its function
  of the arrays it found (one module per region) and every other buffer as it was. Named at each boundary are the few
  buffers later steps read: the source and destination words, the per-node factor and its column, the arguments still
  to be used, and the arrays the regions produce. At the last boundary the result buffer holds the kernel's function of
  the six arguments.
-/
import proofs.«157112_j36636071035639_2_alg».proof.Proof.Gen.KernelIdeal.Frame
import Idealize.ShloMosaic.Lib.StableHlo.Run
import proofs.«157112_j36636071035639_2_alg».proof.Proof.Terms
import proofs.«157112_j36636071035639_2_alg».proof.Proof.Region0
import proofs.«157112_j36636071035639_2_alg».proof.Proof.Region1
import proofs.«157112_j36636071035639_2_alg».proof.Proof.Region2
import proofs.«157112_j36636071035639_2_alg».proof.Proof.Region3

set_option maxRecDepth 16384

noncomputable section

namespace Cert.KernelIdeal.KValue

open Cert.KernelIdeal Cert.KernelIdeal.Gen Cert.KernelIdeal.Terms Cert.ConvLaw
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem at1_v3 (c : Dev nD) : (W1 m ρ c (Proc.devRef .tc main_v3) : S850000.Idx → BitVec 32) = srcWord (m ((c : Thread nD τ).loc main_arg1)) := by
  show StableHlo.after hostOps0 (W0 m ρ c) (Proc.devRef .tc main_v3) = _
  dsimp only [hostOps0]
  after_results
  rfl

set_option maxHeartbeats 4000000 in
theorem at1_v6 (c : Dev nD) : (W1 m ρ c (Proc.devRef .tc main_v6) : S850000.Idx → BitVec 32) = dstWord (m ((c : Thread nD τ).loc main_arg1)) := by
  show StableHlo.after hostOps0 (W0 m ρ c) (Proc.devRef .tc main_v6) = _
  dsimp only [hostOps0]
  after_results
  rfl

set_option maxHeartbeats 4000000 in
theorem at1_v10 (c : Dev nD) : (W1 m ρ c (Proc.devRef .tc main_v10) : S50000.Idx → EReal) = degree (m ((c : Thread nD τ).loc main_arg1)) := by
  show StableHlo.after hostOps0 (W0 m ρ c) (Proc.devRef .tc main_v10) = _
  dsimp only [hostOps0]
  after_results
  unfold degree col dstWord
  rfl

set_option maxHeartbeats 4000000 in
theorem at1_v12 (c : Dev nD) : (W1 m ρ c (Proc.devRef .tc main_v12) : S50000.Idx → BitVec 1) = cmpf .ogt (degree (m ((c : Thread nD τ).loc main_arg1))) (broadcastInDim S50000 ![] bcast_S_S50000 (constant (F := Ideal) S_ .f32 0x00000000#32)) := by
  show StableHlo.after hostOps0 (W0 m ρ c) (Proc.devRef .tc main_v12) = _
  dsimp only [hostOps0]
  after_results
  unfold degree col dstWord
  rfl

set_option maxHeartbeats 4000000 in
theorem at1_v15 (c : Dev nD) : (W1 m ρ c (Proc.devRef .tc main_v15) : S50000.Idx → EReal) = Host.rsqrt (maximumf (degree (m ((c : Thread nD τ).loc main_arg1))) (broadcastInDim S50000 ![] bcast_S_S50000 (constant (F := Ideal) S_ .f32 0x2B8CBCCC#32))) := by
  show StableHlo.after hostOps0 (W0 m ρ c) (Proc.devRef .tc main_v15) = _
  dsimp only [hostOps0]
  after_results
  unfold degree col dstWord
  rfl

set_option maxHeartbeats 4000000 in
theorem at1_cst_3 (c : Dev nD) : (W1 m ρ c (Proc.devRef .tc main_cst_3) : S_.Idx → EReal) = constant (F := Ideal) S_ .f32 0x00000000#32 := by
  show StableHlo.after hostOps0 (W0 m ρ c) (Proc.devRef .tc main_cst_3) = _
  dsimp only [hostOps0]
  after_results

set_option maxHeartbeats 4000000 in
theorem at1_arg0 (c : Dev nD) : (W1 m ρ c (Proc.devRef .tc main_arg0) : S50000x256.Idx → EReal) = (m ((c : Thread nD τ).loc main_arg0)) := by
  show StableHlo.after hostOps0 (W0 m ρ c) (Proc.devRef .tc main_arg0) = _
  dsimp only [hostOps0]
  after_results

set_option maxHeartbeats 4000000 in
theorem at1_arg2 (c : Dev nD) : (W1 m ρ c (Proc.devRef .tc main_arg2) : S256x256.Idx → EReal) = (m ((c : Thread nD τ).loc main_arg2)) := by
  show StableHlo.after hostOps0 (W0 m ρ c) (Proc.devRef .tc main_arg2) = _
  dsimp only [hostOps0]
  after_results

set_option maxHeartbeats 4000000 in
theorem at1_arg3 (c : Dev nD) : (W1 m ρ c (Proc.devRef .tc main_arg3) : S256.Idx → EReal) = (m ((c : Thread nD τ).loc main_arg3)) := by
  show StableHlo.after hostOps0 (W0 m ρ c) (Proc.devRef .tc main_arg3) = _
  dsimp only [hostOps0]
  after_results

set_option maxHeartbeats 4000000 in
theorem at1_arg4 (c : Dev nD) : (W1 m ρ c (Proc.devRef .tc main_arg4) : S256x128.Idx → EReal) = (m ((c : Thread nD τ).loc main_arg4)) := by
  show StableHlo.after hostOps0 (W0 m ρ c) (Proc.devRef .tc main_arg4) = _
  dsimp only [hostOps0]
  after_results

set_option maxHeartbeats 4000000 in
theorem at1_arg5 (c : Dev nD) : (W1 m ρ c (Proc.devRef .tc main_arg5) : S128.Idx → EReal) = (m ((c : Thread nD τ).loc main_arg5)) := by
  show StableHlo.after hostOps0 (W0 m ρ c) (Proc.devRef .tc main_arg5) = _
  dsimp only [hostOps0]
  after_results

set_option maxHeartbeats 400000 in
/-- The outlined "where": its operands are read and its result written through typed references whose types are the
    buffers' own, so it is the plain select of its operands. -/
theorem where_eq (cnd : S50000.Idx → BitVec 1) (x : S50000.Idx → EReal) (z : S_.Idx → EReal) :
    (TRef.of main_v16 : TRef sig ⟨S50000, .f32⟩).toBuf (Val := Elt Ideal)
      (select ((TRef.of main_v12 : TRef sig ⟨S50000, .i1⟩).ofBuf (Val := Elt Ideal) cnd)
        ((TRef.of main_v15 : TRef sig ⟨S50000, .f32⟩).ofBuf (Val := Elt Ideal) x)
        ((TRef.of main_call0_v1 : TRef sig ⟨S50000, .f32⟩).ofBuf (Val := Elt Ideal)
          ((TRef.of main_call0_v1 : TRef sig ⟨S50000, .f32⟩).toBuf (Val := Elt Ideal)
            (broadcastInDim S50000 ![] Facts₀.bcast_S_S50000
              ((TRef.of main_call0_v0 : TRef sig ⟨S_, .f32⟩).ofBuf (Val := Elt Ideal)
                ((TRef.of main_call0_v0 : TRef sig ⟨S_, .f32⟩).toBuf (Val := Elt Ideal)
                  (id ((TRef.of main_cst_3 : TRef sig ⟨S_, .f32⟩).ofBuf (Val := Elt Ideal) z))))))))
      = select cnd x (broadcastInDim S50000 ![] Facts₀.bcast_S_S50000 (id z)) := rfl

set_option maxHeartbeats 4000000 in
theorem at2_v16 (c : Dev nD) : (W2 m ρ c (Proc.devRef .tc main_v16) : S50000.Idx → EReal) = dinv (m ((c : Thread nD τ).loc main_arg1)) := by
  have h_v12 := at1_v12 m ρ c
  have h_v15 := at1_v15 m ρ c
  have h_cst_3 := at1_cst_3 m ρ c
  show StableHlo.after hostOps0_1 (W1 m ρ c) (Proc.devRef .tc main_v16) = _
  generalize W1 m ρ c = V at h_v12 h_v15 h_cst_3 ⊢
  dsimp only [hostOps0_1]
  after_results
  rw [h_v12, h_v15, h_cst_3]
  unfold dinv
  exact where_eq _ _ _

set_option maxHeartbeats 4000000 in
theorem at2_v3 (c : Dev nD) : (W2 m ρ c (Proc.devRef .tc main_v3) : S850000.Idx → BitVec 32) = srcWord (m ((c : Thread nD τ).loc main_arg1)) := by
  have h_v3 := at1_v3 m ρ c
  show StableHlo.after hostOps0_1 (W1 m ρ c) (Proc.devRef .tc main_v3) = _
  generalize W1 m ρ c = V at h_v3 ⊢
  dsimp only [hostOps0_1]
  after_results
  all_goals (exact h_v3)

set_option maxHeartbeats 4000000 in
theorem at2_v6 (c : Dev nD) : (W2 m ρ c (Proc.devRef .tc main_v6) : S850000.Idx → BitVec 32) = dstWord (m ((c : Thread nD τ).loc main_arg1)) := by
  have h_v6 := at1_v6 m ρ c
  show StableHlo.after hostOps0_1 (W1 m ρ c) (Proc.devRef .tc main_v6) = _
  generalize W1 m ρ c = V at h_v6 ⊢
  dsimp only [hostOps0_1]
  after_results
  all_goals (exact h_v6)

set_option maxHeartbeats 4000000 in
theorem at2_arg0 (c : Dev nD) : (W2 m ρ c (Proc.devRef .tc main_arg0) : S50000x256.Idx → EReal) = (m ((c : Thread nD τ).loc main_arg0)) := by
  have h_arg0 := at1_arg0 m ρ c
  show StableHlo.after hostOps0_1 (W1 m ρ c) (Proc.devRef .tc main_arg0) = _
  generalize W1 m ρ c = V at h_arg0 ⊢
  dsimp only [hostOps0_1]
  after_results
  all_goals (exact h_arg0)

set_option maxHeartbeats 4000000 in
theorem at2_arg2 (c : Dev nD) : (W2 m ρ c (Proc.devRef .tc main_arg2) : S256x256.Idx → EReal) = (m ((c : Thread nD τ).loc main_arg2)) := by
  have h_arg2 := at1_arg2 m ρ c
  show StableHlo.after hostOps0_1 (W1 m ρ c) (Proc.devRef .tc main_arg2) = _
  generalize W1 m ρ c = V at h_arg2 ⊢
  dsimp only [hostOps0_1]
  after_results
  all_goals (exact h_arg2)

set_option maxHeartbeats 4000000 in
theorem at2_arg3 (c : Dev nD) : (W2 m ρ c (Proc.devRef .tc main_arg3) : S256.Idx → EReal) = (m ((c : Thread nD τ).loc main_arg3)) := by
  have h_arg3 := at1_arg3 m ρ c
  show StableHlo.after hostOps0_1 (W1 m ρ c) (Proc.devRef .tc main_arg3) = _
  generalize W1 m ρ c = V at h_arg3 ⊢
  dsimp only [hostOps0_1]
  after_results
  all_goals (exact h_arg3)

set_option maxHeartbeats 4000000 in
theorem at2_arg4 (c : Dev nD) : (W2 m ρ c (Proc.devRef .tc main_arg4) : S256x128.Idx → EReal) = (m ((c : Thread nD τ).loc main_arg4)) := by
  have h_arg4 := at1_arg4 m ρ c
  show StableHlo.after hostOps0_1 (W1 m ρ c) (Proc.devRef .tc main_arg4) = _
  generalize W1 m ρ c = V at h_arg4 ⊢
  dsimp only [hostOps0_1]
  after_results
  all_goals (exact h_arg4)

set_option maxHeartbeats 4000000 in
theorem at2_arg5 (c : Dev nD) : (W2 m ρ c (Proc.devRef .tc main_arg5) : S128.Idx → EReal) = (m ((c : Thread nD τ).loc main_arg5)) := by
  have h_arg5 := at1_arg5 m ρ c
  show StableHlo.after hostOps0_1 (W1 m ρ c) (Proc.devRef .tc main_arg5) = _
  generalize W1 m ρ c = V at h_arg5 ⊢
  dsimp only [hostOps0_1]
  after_results
  all_goals (exact h_arg5)

set_option maxHeartbeats 4000000 in
theorem at3_v17 (c : Dev nD) : (W3 m ρ c (Proc.devRef .tc main_v17) : S50000x1.Idx → EReal) = dcol (m ((c : Thread nD τ).loc main_arg1)) := by
  have h_v16 := at2_v16 m ρ c
  show StableHlo.after hostOps0_2 (W2 m ρ c) (Proc.devRef .tc main_v17) = _
  generalize W2 m ρ c = V at h_v16 ⊢
  dsimp only [hostOps0_2]
  after_results
  rw [h_v16]
  rfl

set_option maxHeartbeats 4000000 in
theorem at3_v3 (c : Dev nD) : (W3 m ρ c (Proc.devRef .tc main_v3) : S850000.Idx → BitVec 32) = srcWord (m ((c : Thread nD τ).loc main_arg1)) := by
  have h_v3 := at2_v3 m ρ c
  show StableHlo.after hostOps0_2 (W2 m ρ c) (Proc.devRef .tc main_v3) = _
  generalize W2 m ρ c = V at h_v3 ⊢
  dsimp only [hostOps0_2]
  after_results
  all_goals (exact h_v3)

set_option maxHeartbeats 4000000 in
theorem at3_v6 (c : Dev nD) : (W3 m ρ c (Proc.devRef .tc main_v6) : S850000.Idx → BitVec 32) = dstWord (m ((c : Thread nD τ).loc main_arg1)) := by
  have h_v6 := at2_v6 m ρ c
  show StableHlo.after hostOps0_2 (W2 m ρ c) (Proc.devRef .tc main_v6) = _
  generalize W2 m ρ c = V at h_v6 ⊢
  dsimp only [hostOps0_2]
  after_results
  all_goals (exact h_v6)

set_option maxHeartbeats 4000000 in
theorem at3_v16 (c : Dev nD) : (W3 m ρ c (Proc.devRef .tc main_v16) : S50000.Idx → EReal) = dinv (m ((c : Thread nD τ).loc main_arg1)) := by
  have h_v16 := at2_v16 m ρ c
  show StableHlo.after hostOps0_2 (W2 m ρ c) (Proc.devRef .tc main_v16) = _
  generalize W2 m ρ c = V at h_v16 ⊢
  dsimp only [hostOps0_2]
  after_results
  all_goals (exact h_v16)

set_option maxHeartbeats 4000000 in
theorem at3_arg0 (c : Dev nD) : (W3 m ρ c (Proc.devRef .tc main_arg0) : S50000x256.Idx → EReal) = (m ((c : Thread nD τ).loc main_arg0)) := by
  have h_arg0 := at2_arg0 m ρ c
  show StableHlo.after hostOps0_2 (W2 m ρ c) (Proc.devRef .tc main_arg0) = _
  generalize W2 m ρ c = V at h_arg0 ⊢
  dsimp only [hostOps0_2]
  after_results
  all_goals (exact h_arg0)

set_option maxHeartbeats 4000000 in
theorem at3_arg2 (c : Dev nD) : (W3 m ρ c (Proc.devRef .tc main_arg2) : S256x256.Idx → EReal) = (m ((c : Thread nD τ).loc main_arg2)) := by
  have h_arg2 := at2_arg2 m ρ c
  show StableHlo.after hostOps0_2 (W2 m ρ c) (Proc.devRef .tc main_arg2) = _
  generalize W2 m ρ c = V at h_arg2 ⊢
  dsimp only [hostOps0_2]
  after_results
  all_goals (exact h_arg2)

set_option maxHeartbeats 4000000 in
theorem at3_arg3 (c : Dev nD) : (W3 m ρ c (Proc.devRef .tc main_arg3) : S256.Idx → EReal) = (m ((c : Thread nD τ).loc main_arg3)) := by
  have h_arg3 := at2_arg3 m ρ c
  show StableHlo.after hostOps0_2 (W2 m ρ c) (Proc.devRef .tc main_arg3) = _
  generalize W2 m ρ c = V at h_arg3 ⊢
  dsimp only [hostOps0_2]
  after_results
  all_goals (exact h_arg3)

set_option maxHeartbeats 4000000 in
theorem at3_arg4 (c : Dev nD) : (W3 m ρ c (Proc.devRef .tc main_arg4) : S256x128.Idx → EReal) = (m ((c : Thread nD τ).loc main_arg4)) := by
  have h_arg4 := at2_arg4 m ρ c
  show StableHlo.after hostOps0_2 (W2 m ρ c) (Proc.devRef .tc main_arg4) = _
  generalize W2 m ρ c = V at h_arg4 ⊢
  dsimp only [hostOps0_2]
  after_results
  all_goals (exact h_arg4)

set_option maxHeartbeats 4000000 in
theorem at3_arg5 (c : Dev nD) : (W3 m ρ c (Proc.devRef .tc main_arg5) : S128.Idx → EReal) = (m ((c : Thread nD τ).loc main_arg5)) := by
  have h_arg5 := at2_arg5 m ρ c
  show StableHlo.after hostOps0_2 (W2 m ρ c) (Proc.devRef .tc main_arg5) = _
  generalize W2 m ρ c = V at h_arg5 ⊢
  dsimp only [hostOps0_2]
  after_results
  all_goals (exact h_arg5)

theorem at4_v18 (c : Dev nD) : (W4 m ρ c (Proc.devRef .tc main_v18) : S50000x256.Idx → EReal) = (scaledProduct (m ((c : Thread nD τ).loc main_arg0)) (m ((c : Thread nD τ).loc main_arg2)) (dcol (m ((c : Thread nD τ).loc main_arg1)))) := by
  refine (W4_arr m ρ c 3).trans ((Cert.KernelIdeal.Reg0.arr_eq (V3 m ρ) c).trans ?_)
  show scaledProduct (W3 m ρ c (Proc.devRef .tc main_arg0) : S50000x256.Idx → EReal) (W3 m ρ c (Proc.devRef .tc main_arg2) : S256x256.Idx → EReal) (W3 m ρ c (Proc.devRef .tc main_v17) : S50000x1.Idx → EReal) = _
  rw [at3_arg0, at3_arg2, at3_v17]

theorem at4_v3 (c : Dev nD) : (W4 m ρ c (Proc.devRef .tc main_v3) : S850000.Idx → BitVec 32) = srcWord (m ((c : Thread nD τ).loc main_arg1)) :=
  (W4_of_ne m ρ c main_v3 (by decide)).trans (at3_v3 m ρ c)

theorem at4_v6 (c : Dev nD) : (W4 m ρ c (Proc.devRef .tc main_v6) : S850000.Idx → BitVec 32) = dstWord (m ((c : Thread nD τ).loc main_arg1)) :=
  (W4_of_ne m ρ c main_v6 (by decide)).trans (at3_v6 m ρ c)

theorem at4_v16 (c : Dev nD) : (W4 m ρ c (Proc.devRef .tc main_v16) : S50000.Idx → EReal) = dinv (m ((c : Thread nD τ).loc main_arg1)) :=
  (W4_of_ne m ρ c main_v16 (by decide)).trans (at3_v16 m ρ c)

theorem at4_arg3 (c : Dev nD) : (W4 m ρ c (Proc.devRef .tc main_arg3) : S256.Idx → EReal) = (m ((c : Thread nD τ).loc main_arg3)) :=
  (W4_of_ne m ρ c main_arg3 (by decide)).trans (at3_arg3 m ρ c)

theorem at4_arg4 (c : Dev nD) : (W4 m ρ c (Proc.devRef .tc main_arg4) : S256x128.Idx → EReal) = (m ((c : Thread nD τ).loc main_arg4)) :=
  (W4_of_ne m ρ c main_arg4 (by decide)).trans (at3_arg4 m ρ c)

theorem at4_arg5 (c : Dev nD) : (W4 m ρ c (Proc.devRef .tc main_arg5) : S128.Idx → EReal) = (m ((c : Thread nD τ).loc main_arg5)) :=
  (W4_of_ne m ρ c main_arg5 (by decide)).trans (at3_arg5 m ρ c)

set_option maxHeartbeats 4000000 in
theorem at5_v28 (c : Dev nD) : (W5 m ρ c (Proc.devRef .tc main_v28) : S50000x256.Idx → EReal) = agg256 (scaledProduct (m ((c : Thread nD τ).loc main_arg0)) (m ((c : Thread nD τ).loc main_arg2)) (dcol (m ((c : Thread nD τ).loc main_arg1)))) (m ((c : Thread nD τ).loc main_arg1)) := by
  show StableHlo.after hostOps1 (W4 m ρ c) (Proc.devRef .tc main_v28) = _
  dsimp only [hostOps1]
  after_results
  rw [at4_v18, at4_v3, at4_v6]
  unfold agg256 col nonneg
  rfl

set_option maxHeartbeats 4000000 in
theorem at5_v29 (c : Dev nD) : (W5 m ρ c (Proc.devRef .tc main_v29) : S50000x1.Idx → EReal) = dcol (m ((c : Thread nD τ).loc main_arg1)) := by
  show StableHlo.after hostOps1 (W4 m ρ c) (Proc.devRef .tc main_v29) = _
  dsimp only [hostOps1]
  after_results
  rw [at4_v16]
  rfl

set_option maxHeartbeats 4000000 in
theorem at5_v30 (c : Dev nD) : (W5 m ρ c (Proc.devRef .tc main_v30) : S1x256.Idx → EReal) = brow256 (m ((c : Thread nD τ).loc main_arg3)) := by
  show StableHlo.after hostOps1 (W4 m ρ c) (Proc.devRef .tc main_v30) = _
  dsimp only [hostOps1]
  after_results
  rw [at4_arg3]
  rfl

set_option maxHeartbeats 4000000 in
theorem at5_v3 (c : Dev nD) : (W5 m ρ c (Proc.devRef .tc main_v3) : S850000.Idx → BitVec 32) = srcWord (m ((c : Thread nD τ).loc main_arg1)) := by
  show StableHlo.after hostOps1 (W4 m ρ c) (Proc.devRef .tc main_v3) = _
  dsimp only [hostOps1]
  after_results
  all_goals (exact at4_v3 m ρ c)

set_option maxHeartbeats 4000000 in
theorem at5_v6 (c : Dev nD) : (W5 m ρ c (Proc.devRef .tc main_v6) : S850000.Idx → BitVec 32) = dstWord (m ((c : Thread nD τ).loc main_arg1)) := by
  show StableHlo.after hostOps1 (W4 m ρ c) (Proc.devRef .tc main_v6) = _
  dsimp only [hostOps1]
  after_results
  all_goals (exact at4_v6 m ρ c)

set_option maxHeartbeats 4000000 in
theorem at5_v16 (c : Dev nD) : (W5 m ρ c (Proc.devRef .tc main_v16) : S50000.Idx → EReal) = dinv (m ((c : Thread nD τ).loc main_arg1)) := by
  show StableHlo.after hostOps1 (W4 m ρ c) (Proc.devRef .tc main_v16) = _
  dsimp only [hostOps1]
  after_results
  all_goals (exact at4_v16 m ρ c)

set_option maxHeartbeats 4000000 in
theorem at5_arg4 (c : Dev nD) : (W5 m ρ c (Proc.devRef .tc main_arg4) : S256x128.Idx → EReal) = (m ((c : Thread nD τ).loc main_arg4)) := by
  show StableHlo.after hostOps1 (W4 m ρ c) (Proc.devRef .tc main_arg4) = _
  dsimp only [hostOps1]
  after_results
  all_goals (exact at4_arg4 m ρ c)

set_option maxHeartbeats 4000000 in
theorem at5_arg5 (c : Dev nD) : (W5 m ρ c (Proc.devRef .tc main_arg5) : S128.Idx → EReal) = (m ((c : Thread nD τ).loc main_arg5)) := by
  show StableHlo.after hostOps1 (W4 m ρ c) (Proc.devRef .tc main_arg5) = _
  dsimp only [hostOps1]
  after_results
  all_goals (exact at4_arg5 m ρ c)

theorem at6_v31 (c : Dev nD) : (W6 m ρ c (Proc.devRef .tc main_v31) : S50000x256.Idx → EReal) = hidden (m ((c : Thread nD τ).loc main_arg0)) (m ((c : Thread nD τ).loc main_arg1)) (m ((c : Thread nD τ).loc main_arg2)) (m ((c : Thread nD τ).loc main_arg3)) := by
  refine (W6_arr m ρ c 3).trans ((Cert.KernelIdeal.Reg1.arr_eq (V5 m ρ) c).trans ?_)
  show scaledShiftFloor (W5 m ρ c (Proc.devRef .tc main_v28) : S50000x256.Idx → EReal) (W5 m ρ c (Proc.devRef .tc main_v29) : S50000x1.Idx → EReal) (W5 m ρ c (Proc.devRef .tc main_v30) : S1x256.Idx → EReal) = _
  rw [at5_v28, at5_v29, at5_v30]
  rfl

theorem at6_v3 (c : Dev nD) : (W6 m ρ c (Proc.devRef .tc main_v3) : S850000.Idx → BitVec 32) = srcWord (m ((c : Thread nD τ).loc main_arg1)) :=
  (W6_of_ne m ρ c main_v3 (by decide)).trans (at5_v3 m ρ c)

theorem at6_v6 (c : Dev nD) : (W6 m ρ c (Proc.devRef .tc main_v6) : S850000.Idx → BitVec 32) = dstWord (m ((c : Thread nD τ).loc main_arg1)) :=
  (W6_of_ne m ρ c main_v6 (by decide)).trans (at5_v6 m ρ c)

theorem at6_v16 (c : Dev nD) : (W6 m ρ c (Proc.devRef .tc main_v16) : S50000.Idx → EReal) = dinv (m ((c : Thread nD τ).loc main_arg1)) :=
  (W6_of_ne m ρ c main_v16 (by decide)).trans (at5_v16 m ρ c)

theorem at6_arg4 (c : Dev nD) : (W6 m ρ c (Proc.devRef .tc main_arg4) : S256x128.Idx → EReal) = (m ((c : Thread nD τ).loc main_arg4)) :=
  (W6_of_ne m ρ c main_arg4 (by decide)).trans (at5_arg4 m ρ c)

theorem at6_arg5 (c : Dev nD) : (W6 m ρ c (Proc.devRef .tc main_arg5) : S128.Idx → EReal) = (m ((c : Thread nD τ).loc main_arg5)) :=
  (W6_of_ne m ρ c main_arg5 (by decide)).trans (at5_arg5 m ρ c)

set_option maxHeartbeats 4000000 in
theorem at7_v32 (c : Dev nD) : (W7 m ρ c (Proc.devRef .tc main_v32) : S50000x1.Idx → EReal) = dcol (m ((c : Thread nD τ).loc main_arg1)) := by
  show StableHlo.after hostOps2 (W6 m ρ c) (Proc.devRef .tc main_v32) = _
  dsimp only [hostOps2]
  after_results
  rw [at6_v16]
  rfl

set_option maxHeartbeats 4000000 in
theorem at7_v31 (c : Dev nD) : (W7 m ρ c (Proc.devRef .tc main_v31) : S50000x256.Idx → EReal) = hidden (m ((c : Thread nD τ).loc main_arg0)) (m ((c : Thread nD τ).loc main_arg1)) (m ((c : Thread nD τ).loc main_arg2)) (m ((c : Thread nD τ).loc main_arg3)) := by
  show StableHlo.after hostOps2 (W6 m ρ c) (Proc.devRef .tc main_v31) = _
  dsimp only [hostOps2]
  after_results
  all_goals (exact at6_v31 m ρ c)

set_option maxHeartbeats 4000000 in
theorem at7_v3 (c : Dev nD) : (W7 m ρ c (Proc.devRef .tc main_v3) : S850000.Idx → BitVec 32) = srcWord (m ((c : Thread nD τ).loc main_arg1)) := by
  show StableHlo.after hostOps2 (W6 m ρ c) (Proc.devRef .tc main_v3) = _
  dsimp only [hostOps2]
  after_results
  all_goals (exact at6_v3 m ρ c)

set_option maxHeartbeats 4000000 in
theorem at7_v6 (c : Dev nD) : (W7 m ρ c (Proc.devRef .tc main_v6) : S850000.Idx → BitVec 32) = dstWord (m ((c : Thread nD τ).loc main_arg1)) := by
  show StableHlo.after hostOps2 (W6 m ρ c) (Proc.devRef .tc main_v6) = _
  dsimp only [hostOps2]
  after_results
  all_goals (exact at6_v6 m ρ c)

set_option maxHeartbeats 4000000 in
theorem at7_v16 (c : Dev nD) : (W7 m ρ c (Proc.devRef .tc main_v16) : S50000.Idx → EReal) = dinv (m ((c : Thread nD τ).loc main_arg1)) := by
  show StableHlo.after hostOps2 (W6 m ρ c) (Proc.devRef .tc main_v16) = _
  dsimp only [hostOps2]
  after_results
  all_goals (exact at6_v16 m ρ c)

set_option maxHeartbeats 4000000 in
theorem at7_arg4 (c : Dev nD) : (W7 m ρ c (Proc.devRef .tc main_arg4) : S256x128.Idx → EReal) = (m ((c : Thread nD τ).loc main_arg4)) := by
  show StableHlo.after hostOps2 (W6 m ρ c) (Proc.devRef .tc main_arg4) = _
  dsimp only [hostOps2]
  after_results
  all_goals (exact at6_arg4 m ρ c)

set_option maxHeartbeats 4000000 in
theorem at7_arg5 (c : Dev nD) : (W7 m ρ c (Proc.devRef .tc main_arg5) : S128.Idx → EReal) = (m ((c : Thread nD τ).loc main_arg5)) := by
  show StableHlo.after hostOps2 (W6 m ρ c) (Proc.devRef .tc main_arg5) = _
  dsimp only [hostOps2]
  after_results
  all_goals (exact at6_arg5 m ρ c)

theorem at8_v33 (c : Dev nD) : (W8 m ρ c (Proc.devRef .tc main_v33) : S50000x128.Idx → EReal) = scaledProduct (hidden (m ((c : Thread nD τ).loc main_arg0)) (m ((c : Thread nD τ).loc main_arg1)) (m ((c : Thread nD τ).loc main_arg2)) (m ((c : Thread nD τ).loc main_arg3))) (m ((c : Thread nD τ).loc main_arg4)) (dcol (m ((c : Thread nD τ).loc main_arg1))) := by
  refine (W8_arr m ρ c 3).trans ((Cert.KernelIdeal.Reg2.arr_eq (V7 m ρ) c).trans ?_)
  show scaledProduct (W7 m ρ c (Proc.devRef .tc main_v31) : S50000x256.Idx → EReal) (W7 m ρ c (Proc.devRef .tc main_arg4) : S256x128.Idx → EReal) (W7 m ρ c (Proc.devRef .tc main_v32) : S50000x1.Idx → EReal) = _
  rw [at7_v31, at7_arg4, at7_v32]

theorem at8_v3 (c : Dev nD) : (W8 m ρ c (Proc.devRef .tc main_v3) : S850000.Idx → BitVec 32) = srcWord (m ((c : Thread nD τ).loc main_arg1)) :=
  (W8_of_ne m ρ c main_v3 (by decide)).trans (at7_v3 m ρ c)

theorem at8_v6 (c : Dev nD) : (W8 m ρ c (Proc.devRef .tc main_v6) : S850000.Idx → BitVec 32) = dstWord (m ((c : Thread nD τ).loc main_arg1)) :=
  (W8_of_ne m ρ c main_v6 (by decide)).trans (at7_v6 m ρ c)

theorem at8_v16 (c : Dev nD) : (W8 m ρ c (Proc.devRef .tc main_v16) : S50000.Idx → EReal) = dinv (m ((c : Thread nD τ).loc main_arg1)) :=
  (W8_of_ne m ρ c main_v16 (by decide)).trans (at7_v16 m ρ c)

theorem at8_arg5 (c : Dev nD) : (W8 m ρ c (Proc.devRef .tc main_arg5) : S128.Idx → EReal) = (m ((c : Thread nD τ).loc main_arg5)) :=
  (W8_of_ne m ρ c main_arg5 (by decide)).trans (at7_arg5 m ρ c)

set_option maxHeartbeats 4000000 in
theorem at9_v43 (c : Dev nD) : (W9 m ρ c (Proc.devRef .tc main_v43) : S50000x128.Idx → EReal) = agg128 (scaledProduct (hidden (m ((c : Thread nD τ).loc main_arg0)) (m ((c : Thread nD τ).loc main_arg1)) (m ((c : Thread nD τ).loc main_arg2)) (m ((c : Thread nD τ).loc main_arg3))) (m ((c : Thread nD τ).loc main_arg4)) (dcol (m ((c : Thread nD τ).loc main_arg1)))) (m ((c : Thread nD τ).loc main_arg1)) := by
  show StableHlo.after hostOps3 (W8 m ρ c) (Proc.devRef .tc main_v43) = _
  dsimp only [hostOps3]
  after_results
  rw [at8_v33, at8_v3, at8_v6]
  unfold agg128 col nonneg
  rfl

set_option maxHeartbeats 4000000 in
theorem at9_v44 (c : Dev nD) : (W9 m ρ c (Proc.devRef .tc main_v44) : S50000x1.Idx → EReal) = dcol (m ((c : Thread nD τ).loc main_arg1)) := by
  show StableHlo.after hostOps3 (W8 m ρ c) (Proc.devRef .tc main_v44) = _
  dsimp only [hostOps3]
  after_results
  rw [at8_v16]
  rfl

set_option maxHeartbeats 4000000 in
theorem at9_v45 (c : Dev nD) : (W9 m ρ c (Proc.devRef .tc main_v45) : S1x128.Idx → EReal) = brow128 (m ((c : Thread nD τ).loc main_arg5)) := by
  show StableHlo.after hostOps3 (W8 m ρ c) (Proc.devRef .tc main_v45) = _
  dsimp only [hostOps3]
  after_results
  rw [at8_arg5]
  rfl

/-- THE RESULT BUFFER at the last boundary is the kernel's function of the six arguments. -/
theorem result_eq (c : Dev nD) : (W10 m ρ c (Proc.devRef .tc main_v46) : S50000x128.Idx → EReal) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 3).trans ((Cert.KernelIdeal.Reg3.arr_eq (V9 m ρ) c).trans ?_)
  show scaledShift (W9 m ρ c (Proc.devRef .tc main_v43) : S50000x128.Idx → EReal) (W9 m ρ c (Proc.devRef .tc main_v44) : S50000x1.Idx → EReal) (W9 m ρ c (Proc.devRef .tc main_v45) : S1x128.Idx → EReal) = _
  rw [at9_v43, at9_v44, at9_v45]
  rfl

end Cert.KernelIdeal.KValue

end
-- ==== Proof.Bridge.lean ====
/-
  The reference's result is the kernel's.

  The reference computes each layer as: rows of H · W gathered through the source words, the row of edge e scaled by
  (factor of src e) · (factor of dst e), scatter-added through the destination words into zeros, plus the bias. Its
  run's result term is that arrangement applied twice, with a floor at zero in between. The kernel scales row n of
  H · W by the factor of n before the gather and row n of the sum by the factor of n after the scatter. Both use the same
  source and destination words and the same factor, a non-negative extended real other than +∞; so the two arrangements
  of a layer agree at every entry, and the two results are one function of the six arguments.
-/
import proofs.«157112_j36636071035639_2_alg».proof.Proof.RefRunPatched
import proofs.«157112_j36636071035639_2_alg».proof.Proof.Gen.KernelIdeal
import proofs.«157112_j36636071035639_2_alg».proof.Proof.Gen.ReferenceIdeal
import Idealize.ShloMosaic.Lib.ValueIdx
import Idealize.ShloMosaic.Lib.ValueLayout
import Idealize.ShloMosaic.Lib.Pipeline.Value
import proofs.«157112_j36636071035639_2_alg».proof.Proof.Terms
import proofs.«157112_j36636071035639_2_alg».proof.Proof.LibConvLayer
import proofs.«157112_j36636071035639_2_alg».proof.Proof.LibFusedColumns
import proofs.«157112_j36636071035639_2_alg».proof.Proof.LibRowGather

set_option maxRecDepth 16384

noncomputable section

namespace Cert.Bridge

open Cert.ReferenceIdeal Cert.ReferenceIdeal.Facts₀ Cert.ReferenceIdeal.Facts
open Idealize.ShloMosaic Idealize.ShloMosaic.ValueIdx Idealize.ShloMosaic.TcCoe Idealize.SL.Sem
open Cert.ConvLaw Cert.LibRowGather Cert.KernelIdeal.Terms

/-- The factor of an edge's source times the factor of its destination. -/
def normVec (a1 : IVec S2x800000 32) : FVec Ideal S850000 .f32 :=
  mulf (Host.gather gather_S50000_S850000x1_S850000_n_0_n_n_0_1_1 (dinv a1) (col (nonneg (srcWord a1))))
    (Host.gather gather_S50000_S850000x1_S850000_n_0_n_n_0_1_1 (dinv a1) (col (nonneg (dstWord a1))))

/-- The per-edge factor repeated along the 256 columns. -/
def scale256 (a1 : IVec S2x800000 32) : FVec Ideal S850000x256 .f32 :=
  broadcastInDim S850000x256 ![0, 1] bcast_S850000x1_S850000x256_0_1
    (broadcastInDim S850000x1 ![0] bcast_S850000_S850000x1_0 (normVec a1))

/-- The bias vector repeated along the rows. -/
def bias256 (b : FVec Ideal S256 .f32) : FVec Ideal S50000x256 .f32 :=
  broadcastInDim S50000x256 ![0, 1] bcast_S1x256_S50000x256_0_1 (broadcastInDim S1x256 ![1] bcast_S256_S1x256_1 b)

/-- The array of zeros the scatter-add starts from. -/
def zeros256 : FVec Ideal S50000x256 .f32 :=
  broadcastInDim S50000x256 ![] bcast_S_S50000x256 (constant S_ .f32 0x00000000#32)

/-- The reference's arrangement of the layer with 256 columns: rows of H · W gathered by source, each scaled by the product
    of the factors of its two end nodes, scatter-added by destination into zeros, plus the bias. -/
def refLayer256 (H : FVec Ideal S50000x256 .f32) (W : FVec Ideal S256x256 .f32) (b : FVec Ideal S256 .f32)
    (a1 : IVec S2x800000 32) : FVec Ideal S50000x256 .f32 :=
  addf (Host.scatterAdd scatter_S50000x256_S850000x1_S850000x256_1_0_0_1 zeros256 (col (dstWord a1))
      (mulf (Host.gather gather_S50000x256_S850000x1_S850000x256_1_0_n_n_0_1_1256
          (Host.dotGeneral dot_S50000x256_S256x256_S50000x256_1_0_0_1_n_n none H W) (col (nonneg (srcWord a1))))
        (scale256 a1)))
    (bias256 b)

/-- The per-edge factor repeated along the 128 columns. -/
def scale128 (a1 : IVec S2x800000 32) : FVec Ideal S850000x128 .f32 :=
  broadcastInDim S850000x128 ![0, 1] bcast_S850000x1_S850000x128_0_1
    (broadcastInDim S850000x1 ![0] bcast_S850000_S850000x1_0 (normVec a1))

/-- The bias vector repeated along the rows. -/
def bias128 (b : FVec Ideal S128 .f32) : FVec Ideal S50000x128 .f32 :=
  broadcastInDim S50000x128 ![0, 1] bcast_S1x128_S50000x128_0_1 (broadcastInDim S1x128 ![1] bcast_S128_S1x128_1 b)

/-- The array of zeros the scatter-add starts from. -/
def zeros128 : FVec Ideal S50000x128 .f32 :=
  broadcastInDim S50000x128 ![] bcast_S_S50000x128 (constant S_ .f32 0x00000000#32)

/-- The reference's arrangement of the layer with 128 columns: rows of H · W gathered by source, each scaled by the product
    of the factors of its two end nodes, scatter-added by destination into zeros, plus the bias. -/
def refLayer128 (H : FVec Ideal S50000x256 .f32) (W : FVec Ideal S256x128 .f32) (b : FVec Ideal S128 .f32)
    (a1 : IVec S2x800000 32) : FVec Ideal S50000x128 .f32 :=
  addf (Host.scatterAdd scatter_S50000x128_S850000x1_S850000x128_1_0_0_1 zeros128 (col (dstWord a1))
      (mulf (Host.gather gather_S50000x128_S850000x1_S850000x128_1_0_n_n_0_1_1128
          (Host.dotGeneral dot_S50000x256_S256x128_S50000x128_1_0_0_1_n_n none H W) (col (nonneg (srcWord a1))))
        (scale128 a1)))
    (bias128 b)

/-- The reference's result as one function of the six arguments. -/
def refOut (a0 : FVec Ideal S50000x256 .f32) (a1 : IVec S2x800000 32) (a2 : FVec Ideal S256x256 .f32)
    (a3 : FVec Ideal S256 .f32) (a4 : FVec Ideal S256x128 .f32) (a5 : FVec Ideal S128 .f32) : FVec Ideal S50000x128 .f32 :=
  refLayer128 (maximumf (refLayer256 a0 a2 a3 a1)
    zeros256) a4 a5 a1

/-- The run's result term is that function of the launch contents of the arguments. -/
theorem res_eq (m : (ℓ : Loc nD τ sig) → Buf (Elt Ideal) ℓ) (c : Dev nD) :
    Cert.ReferenceIdeal.Value.res_main_v91 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v91 refOut refLayer128 refLayer256 scale128 scale256 bias128 bias256 zeros128 zeros256 normVec
  rfl

/-! ## The small facts the law asks for -/

/-- The host's reciprocal square root of an array reads, at an index, the reciprocal square root of the entry. -/
theorem hostRsqrt_apply (y : FVec Ideal S50000 .f32) (i : S50000.Idx) : Host.rsqrt y i = Ideal.rsqrt (y i) := rfl

/-- A float constant repeated along the nodes reads its value everywhere. -/
theorem splat_apply (w : BitVec 32) (i : S50000.Idx) :
    broadcastInDim S50000 ![] bcast_S_S50000 (constant (F := Ideal) S_ .f32 w) i = Ideal.ofBits .f32 w := rfl

theorem splat_id_apply (w : BitVec 32) (i : S50000.Idx) :
    broadcastInDim S50000 ![] bcast_S_S50000 (id (constant (F := Ideal) S_ .f32 w)) i = Ideal.ofBits .f32 w := rfl

/-- The factor of node n: zero, or the reciprocal square root of the larger of the degree and the floor. -/
theorem dinv_apply (a1 : IVec S2x800000 32) (i : S50000.Idx) :
    dinv a1 i = Scalar.select
      (cmpf .ogt (degree a1) (broadcastInDim S50000 ![] bcast_S_S50000 (constant (F := Ideal) S_ .f32 0x00000000#32)) i)
      (Ideal.rsqrt (max (degree a1 i) (Ideal.ofBits .f32 0x2B8CBCCC#32))) (Ideal.ofBits .f32 0x00000000#32) := by
  unfold dinv
  rw [select_apply, hostRsqrt_apply, maximumf_apply, splat_apply, splat_id_apply]

/-- The factor of every node is a non-negative extended real other than +∞. -/
theorem dinv_bounds (a1 : IVec S2x800000 32) (n : Fin 50000) : 0 ≤ dinv a1 (ix1 n) ∧ dinv a1 (ix1 n) ≠ ⊤ := by
  rw [dinv_apply]
  exact factor_bounds _ _

/-- The factor as a column reads, at row n, the factor of n. -/
theorem dcol_apply (a1 : IVec S2x800000 32) (n : Fin 50000) : dcol a1 (ix2 n (0 : Fin 1)) = dinv a1 (ix1 n) := by
  unfold dcol
  refine shapeCast_apply _ _ (ix2 n (0 : Fin 1)) (ix1 n) ?_
  rw [Shape.rowMajor_val_two, Shape.rowMajor_val_one]
  show n.val = n.val * 1 + 0
  omega

/-- A bias vector as a row reads, at lane c, the vector at c. -/
theorem brow256_apply (b : FVec Ideal S256 .f32) (c : Fin 256) : brow256 b (ix2 (0 : Fin 1) c) = b (ix1 c) := by
  unfold brow256
  exact shapeCast_a_1a_apply _ _ 0 c

theorem brow128_apply (b : FVec Ideal S128 .f32) (c : Fin 128) : brow128 b (ix2 (0 : Fin 1) c) = b (ix1 c) := by
  unfold brow128
  exact shapeCast_a_1a_apply _ _ 0 c

/-- Where the destination word is non-negative, the column made non-negative agrees with the raw column. -/
theorem dst_agree (a1 : IVec S2x800000 32) (e : Fin 850000) (h : 0 ≤ (col (dstWord a1) (edgeIdx e)).toInt) :
    col (nonneg (dstWord a1)) (edgeIdx e) = col (dstWord a1) (edgeIdx e) := by
  have e1 : col (nonneg (dstWord a1)) (edgeIdx e) = nonneg (dstWord a1) (ix1 e) := col_apply (by decide) _ _ e
  have e2 : col (dstWord a1) (edgeIdx e) = dstWord a1 (ix1 e) := col_apply (by decide) _ _ e
  rw [e2] at h
  rw [e1, e2]
  exact wrap_of_nonneg _ _ _ (ix1 e) rfl h

/-- The per-edge factor at e. -/
theorem normVec_apply (a1 : IVec S2x800000 32) (e : Fin 850000) :
    normVec a1 (ix1 e) = Host.gather gather_S50000_S850000x1_S850000_n_0_n_n_0_1_1 (dinv a1) (col (nonneg (srcWord a1))) (ix1 e)
      * Host.gather gather_S50000_S850000x1_S850000_n_0_n_n_0_1_1 (dinv a1) (col (nonneg (dstWord a1))) (ix1 e) := by
  unfold normVec
  exact mulf_apply _ _ _

/-- The repeated per-edge factor at (e, c) is the per-edge factor at e. -/
theorem scale256_apply (a1 : IVec S2x800000 32) (e : Fin 850000) (c : Fin 256) :
    scale256 a1 (ix2 e c) = normVec a1 (ix1 e) := by
  unfold scale256
  exact Cert.LibFusedColumns.rowScale_apply (E := 850000) (C := 256) (by decide) bcast_S850000_S850000x1_0
    bcast_S850000x1_S850000x256_0_1 (normVec a1) e c

/-- The repeated bias at (n, c) is the bias row at c. -/
theorem bias256_apply (b : FVec Ideal S256 .f32) (n : Fin 50000) (c : Fin 256) :
    bias256 b (ix2 n c) = brow256 b (ix2 (0 : Fin 1) c) := by
  unfold bias256
  exact (Cert.LibFusedColumns.laneBias_apply (N := 50000) (C := 256) (by decide) bcast_S256_S1x256_1
    bcast_S1x256_S50000x256_0_1 b n c).trans (brow256_apply b c).symm

theorem zeros256_apply (i : S50000x256.Idx) : zeros256 i = 0 := Ideal.ofBits_zero_f32

/-- The repeated per-edge factor at (e, c) is the per-edge factor at e. -/
theorem scale128_apply (a1 : IVec S2x800000 32) (e : Fin 850000) (c : Fin 128) :
    scale128 a1 (ix2 e c) = normVec a1 (ix1 e) := by
  unfold scale128
  exact Cert.LibFusedColumns.rowScale_apply (E := 850000) (C := 128) (by decide) bcast_S850000_S850000x1_0
    bcast_S850000x1_S850000x128_0_1 (normVec a1) e c

/-- The repeated bias at (n, c) is the bias row at c. -/
theorem bias128_apply (b : FVec Ideal S128 .f32) (n : Fin 50000) (c : Fin 128) :
    bias128 b (ix2 n c) = brow128 b (ix2 (0 : Fin 1) c) := by
  unfold bias128
  exact (Cert.LibFusedColumns.laneBias_apply (N := 50000) (C := 128) (by decide) bcast_S128_S1x128_1
    bcast_S1x128_S50000x128_0_1 b n c).trans (brow128_apply b c).symm

theorem zeros128_apply (i : S50000x128.Idx) : zeros128 i = 0 := Ideal.ofBits_zero_f32

/-! ## The two layers -/

/-- The kernel's aggregation, spelt with the reference's records of dimension numbers (the two programs print the same records). -/
theorem agg256_eq (H : FVec Ideal S50000x256 .f32) (a1 : IVec S2x800000 32) :
    agg256 H a1 = Host.scatterAdd scatter_S50000x256_S850000x1_S850000x256_1_0_0_1 zeros256 (col (dstWord a1))
      (Host.gather gather_S50000x256_S850000x1_S850000x256_1_0_n_n_0_1_1256 H (col (nonneg (srcWord a1)))) := by
  unfold agg256 zeros256
  rfl

/-- The kernel's aggregation, spelt with the reference's records of dimension numbers (the two programs print the same records). -/
theorem agg128_eq (H : FVec Ideal S50000x128 .f32) (a1 : IVec S2x800000 32) :
    agg128 H a1 = Host.scatterAdd scatter_S50000x128_S850000x1_S850000x128_1_0_0_1 zeros128 (col (dstWord a1))
      (Host.gather gather_S50000x128_S850000x1_S850000x128_1_0_n_n_0_1_1128 H (col (nonneg (srcWord a1)))) := by
  unfold agg128 zeros128
  rfl

/-- The layer with 256 columns: the kernel's arrangement is the reference's, entry by entry. -/
theorem layer256 (H : FVec Ideal S50000x256 .f32) (W : FVec Ideal S256x256 .f32) (b : FVec Ideal S256 .f32)
    (a1 : IVec S2x800000 32) (n : Fin 50000) (c : Fin 256) :
    scaledShift (agg256 (scaledProduct H W (dcol a1)) a1) (dcol a1) (brow256 b) (ix2 n c)
      = refLayer256 H W b a1 (ix2 n c) := by
  rw [agg256_eq]
  unfold refLayer256
  exact layer_eq (N := 50000) (E := 850000) (K := 256) (C := 256) (w := 32) (by decide)
    dot_S50000x256_S256x256_S50000x256_1_0_0_1_n_n rfl rfl rfl rfl rfl rfl
    gather_S50000_S850000x1_S850000_n_0_n_n_0_1_1 rfl rfl rfl rfl rfl rfl rfl
    gather_S50000x256_S850000x1_S850000x256_1_0_n_n_0_1_1256 rfl rfl rfl rfl rfl rfl rfl
    scatter_S50000x256_S850000x1_S850000x256_1_0_0_1 rfl rfl rfl rfl
    H W (dinv a1) (dinv_bounds a1) (dcol a1) (dcol_apply a1) (brow256 b) (bias256 b) (bias256_apply b)
    (col (nonneg (srcWord a1))) (col (nonneg (dstWord a1))) (col (dstWord a1)) (dst_agree a1)
    zeros256 zeros256_apply (scale256 a1) (fun e' c' => (scale256_apply a1 e' c').trans (normVec_apply a1 e')) n c

/-- The layer with 128 columns: the kernel's arrangement is the reference's, entry by entry. -/
theorem layer128 (H : FVec Ideal S50000x256 .f32) (W : FVec Ideal S256x128 .f32) (b : FVec Ideal S128 .f32)
    (a1 : IVec S2x800000 32) (n : Fin 50000) (c : Fin 128) :
    scaledShift (agg128 (scaledProduct H W (dcol a1)) a1) (dcol a1) (brow128 b) (ix2 n c)
      = refLayer128 H W b a1 (ix2 n c) := by
  rw [agg128_eq]
  unfold refLayer128
  exact layer_eq (N := 50000) (E := 850000) (K := 256) (C := 128) (w := 32) (by decide)
    dot_S50000x256_S256x128_S50000x128_1_0_0_1_n_n rfl rfl rfl rfl rfl rfl
    gather_S50000_S850000x1_S850000_n_0_n_n_0_1_1 rfl rfl rfl rfl rfl rfl rfl
    gather_S50000x128_S850000x1_S850000x128_1_0_n_n_0_1_1128 rfl rfl rfl rfl rfl rfl rfl
    scatter_S50000x128_S850000x1_S850000x128_1_0_0_1 rfl rfl rfl rfl
    H W (dinv a1) (dinv_bounds a1) (dcol a1) (dcol_apply a1) (brow128 b) (bias128 b) (bias128_apply b)
    (col (nonneg (srcWord a1))) (col (nonneg (dstWord a1))) (col (dstWord a1)) (dst_agree a1)
    zeros128 zeros128_apply (scale128 a1) (fun e' c' => (scale128_apply a1 e' c').trans (normVec_apply a1 e')) n c

/-- The floored form of a layer at an entry is the larger of the unfloored form and zero. -/
theorem scaledShiftFloor_apply {N C : Nat} (A : FVec Ideal ⟨2, ![N, C]⟩ .f32) (Dc : FVec Ideal ⟨2, ![N, 1]⟩ .f32)
    (Br : FVec Ideal ⟨2, ![1, C]⟩ .f32) (i : (⟨2, ![N, C]⟩ : Shape).Idx) :
    scaledShiftFloor A Dc Br i = max (scaledShift A Dc Br i) 0 := rfl

/-- The first layer floored at zero. -/
theorem hidden_eq (a0 : FVec Ideal S50000x256 .f32) (a1 : IVec S2x800000 32) (a2 : FVec Ideal S256x256 .f32)
    (a3 : FVec Ideal S256 .f32) :
    hidden a0 a1 a2 a3 = maximumf (refLayer256 a0 a2 a3 a1) zeros256 := by
  funext i
  obtain ⟨n, c, rfl⟩ : ∃ (n : Fin 50000) (c : Fin 256), i = ix2 n c := ⟨i 0, i 1, eq_ix2 i⟩
  unfold Cert.KernelIdeal.Terms.hidden
  rw [scaledShiftFloor_apply, maximumf_apply, zeros256_apply, layer256]

/-- THE TWO RESULTS ARE ONE FUNCTION of the six arguments. -/
theorem out_eq (a0 : FVec Ideal S50000x256 .f32) (a1 : IVec S2x800000 32) (a2 : FVec Ideal S256x256 .f32)
    (a3 : FVec Ideal S256 .f32) (a4 : FVec Ideal S256x128 .f32) (a5 : FVec Ideal S128 .f32) :
    kernelOut a0 a1 a2 a3 a4 a5 = refOut a0 a1 a2 a3 a4 a5 := by
  funext i
  obtain ⟨n, c, rfl⟩ : ∃ (n : Fin 50000) (c : Fin 128), i = ix2 n c := ⟨i 0, i 1, eq_ix2 i⟩
  unfold kernelOut refOut
  rw [hidden_eq]
  exact layer128 _ a4 a5 a1 n c

end Cert.Bridge

end
-- ==== Proof.lean ====
/-
  A two-layer graph convolution with symmetric normalisation, as a kernel and as its reference, over the extended reals.

  Both programs take node features x : [50000, 256], an edge list [2, 800000] of words, and the weights and biases of
  two layers. Both append one self-loop per node to the edge list, count each node's degree over the destination
  words, and take as the factor of node n zero if its degree is not positive and the reciprocal square root of
  max(degree, 1e-12) otherwise. A layer sends features H to, at node n and column c,
      the sum over the edges e with destination n of (H · W)[src e, c] · factor(src e) · factor(n), plus bias[c];
  the result is the second layer of the first layer floored at zero.

  The reference scales each gathered row by factor(src e) · factor(dst e) before the scatter-add. The kernel runs four
  regions on the device: a product scaled row by row by the factor (so the gather reads rows already scaled by the
  source's factor), then — after the host's gather and scatter-add — a second region that scales row n of the sum by the
  factor of n and adds the bias (and takes the larger of that and zero in the first layer), and the same two regions
  again for the second layer. The factor of a node is a non-negative extended real other than +∞, so it distributes
  over the sum of extended reals that lands on the node; hence the two arrangements agree at every entry for ANY
  contents of the float arguments. The changes of float format in front of the kernel's products are the identity here.

  The three frames are the generated ones (the reference's is its run with the result dropped); the kernel's
  idealization rewrote no operation, so nothing is owed for it; the equality of the two results is `out_eq`.
-/
import proofs.«157112_j36636071035639_2_alg».proof.Defs
import proofs.«157112_j36636071035639_2_alg».proof.Proof.Gen.Kernel
import proofs.«157112_j36636071035639_2_alg».proof.Proof.Gen.Kernel.Skeleton
import proofs.«157112_j36636071035639_2_alg».proof.Proof.Gen.Kernel.Launch
import proofs.«157112_j36636071035639_2_alg».proof.Proof.Gen.Kernel.Points
import proofs.«157112_j36636071035639_2_alg».proof.Proof.Gen.Kernel.Frame
import proofs.«157112_j36636071035639_2_alg».proof.Proof.Gen.KernelIdeal
import proofs.«157112_j36636071035639_2_alg».proof.Proof.Gen.KernelIdeal.Skeleton
import proofs.«157112_j36636071035639_2_alg».proof.Proof.Gen.KernelIdeal.Launch
import proofs.«157112_j36636071035639_2_alg».proof.Proof.Gen.KernelIdeal.Points
import proofs.«157112_j36636071035639_2_alg».proof.Proof.Gen.KernelIdeal.Frame
import proofs.«157112_j36636071035639_2_alg».proof.Proof.Gen.ReferenceIdeal
import proofs.«157112_j36636071035639_2_alg».proof.Proof.Gen.Pre_finite_inputs
import proofs.«157112_j36636071035639_2_alg».proof.Proof.RefRunPatched
import proofs.«157112_j36636071035639_2_alg».proof.Proof.KRun
import proofs.«157112_j36636071035639_2_alg».proof.Proof.KValue
import proofs.«157112_j36636071035639_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and both results are the kernel's function of the
    six arguments: the kernel's by reading its result buffer through @main, the reference's because its result term is
    the same function. -/
theorem algebraic : Cert.algebraic_KernelIdeal_ReferenceIdeal := by
  intro m ρ m' ρ' _ hagree
  refine ⟨fun c => Cert.KernelIdeal.Terms.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result_eq m ρ c), (h c).2⟩)
      (Cert.KernelIdeal.KRun.run m ρ)
  · refine (θ_run Cert.ReferenceIdeal.defs _ _).mono (fun _ h c => ⟨(h c).1.trans ?_, (h c).2⟩)
      (Cert.ReferenceIdeal.Value.run (F := Ideal) m' ρ')
    rw [Cert.Bridge.res_eq, (hagree c).1, (hagree c).2.1, (hagree c).2.2.1, (hagree c).2.2.2.1, (hagree c).2.2.2.2.1,
      (hagree c).2.2.2.2.2]
    exact (Cert.Bridge.out_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
